-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x32000000 : Shape := ⟨2, ![2, 32000000]⟩
abbrev S1x1 : Shape := ⟨2, ![1, 1]⟩
abbrev S1 : Shape := ⟨1, ![1]⟩
abbrev S_ : Shape := ⟨0, ![]⟩
abbrev S1x32000000 : Shape := ⟨2, ![1, 32000000]⟩
abbrev S32000000 : Shape := ⟨1, ![32000000]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  slices_S2x32000000_S1x32000000_0_0 : S2x32000000.Slices ![0, 0] S1x32000000
  shapeCasts_S1x32000000_S32000000 : S1x32000000.ShapeCasts S32000000
  bcast_S_S32000000 : S_.BroadcastsInDim S32000000 (![] : Fin 0 → Fin S32000000.rank)
  reducesTo_S32000000_S_d0 : S32000000.ReducesTo [0] S_

variable [Facts]

def fn_part1 {F : FTy → Type} [FloatOps F] (main_arg1 : IVec S2x32000000 32) (main_v13 : IVec S_ 1) (main_v15 : IVec S32000000 32) (main_v16 : IVec S32000000 32) : IVec S_ 1 :=
  let main_v17 : IVec S32000000 1 := cmpi .sge main_v15 main_v16
  let main_v18 : IVec S1x32000000 32 := (extractStridedSlice S1x32000000 ![0, 0] · slices_S2x32000000_S1x32000000_0_0) main_arg1
  let main_v19 : IVec S32000000 32 := shapeCast S32000000 main_v18 shapeCasts_S1x32000000_S32000000
  let main_c_5 : IVec S_ 32 := constantI S_ 32 1000000#32
  let main_v20 : IVec S32000000 32 := broadcastInDim S32000000 ![] bcast_S_S32000000 main_c_5
  let main_v21 : IVec S32000000 1 := cmpi .slt main_v19 main_v20
  let main_v22 : IVec S32000000 1 := andi main_v17 main_v21
  let main_c_6 : IVec S_ 1 := constantI S_ 1 1#1
  let main_v23 : IVec S_ 1 := (fun x v => Host.reduce IntOp.andi x v reducesTo_S32000000_S_d0 h_S_) main_v22 main_c_6
  let main_v24 : IVec S_ 1 := andi main_v13 main_v23
  main_v24

def fn {F : FTy → Type} [FloatOps F] (main_arg0 : FVec F S1000000x1 .f32) (main_arg1 : IVec S2x32000000 32) (main_arg2 : FVec F S1x1 .f32) (main_arg3 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : IVec S1x32000000 32 := (extractStridedSlice S1x32000000 ![0, 0] · slices_S2x32000000_S1x32000000_0_0) main_arg1
  let main_v15 : IVec S32000000 32 := shapeCast S32000000 main_v14 shapeCasts_S1x32000000_S32000000
  let main_c_4 : IVec S_ 32 := constantI S_ 32 0#32
  let main_v16 : IVec S32000000 32 := broadcastInDim S32000000 ![] bcast_S_S32000000 main_c_4
  fn_part1 (F := F) main_arg1 main_v13 main_v15 main_v16
-- ==== Kernel.lean ====
abbrev S1000000x1 : Shape := ⟨2, ![1000000, 1]⟩
abbrev S2x32000000 : Shape := ⟨2, ![2, 32000000]⟩
abbrev S1x1 : Shape := ⟨2, ![1, 1]⟩
abbrev S1 : Shape := ⟨1, ![1]⟩
abbrev S1x32000000 : Shape := ⟨2, ![1, 32000000]⟩
abbrev S32000000 : Shape := ⟨1, ![32000000]⟩
abbrev S_ : Shape := ⟨0, ![]⟩
abbrev S1000000 : Shape := ⟨1, ![1000000]⟩
abbrev S32000000x1 : Shape := ⟨2, ![32000000, 1]⟩
abbrev S1048576 : Shape := ⟨1, ![1048576]⟩
abbrev S8192x128 : Shape := ⟨2, ![8192, 128]⟩
abbrev S1024x128 : Shape := ⟨2, ![1024, 128]⟩

abbrev nBuf : Space → Nat
  | .hbm => 49
  | .vmem => 20
  | .smem => 0
  | _ => 0

abbrev bufTy : (tb : Table) → Fin (tcTables nBuf tb) → BufTy
  | .hbm, ⟨0, _⟩ => ⟨S1000000x1, .f32⟩
  | .hbm, ⟨1, _⟩ => ⟨S2x32000000, .i32⟩
  | .hbm, ⟨2, _⟩ => ⟨S1x1, .f32⟩
  | .hbm, ⟨3, _⟩ => ⟨S1, .f32⟩
  | .hbm, ⟨4, _⟩ => ⟨S1x32000000, .i32⟩
  | .hbm, ⟨5, _⟩ => ⟨S32000000, .i32⟩
  | .hbm, ⟨6, _⟩ => ⟨S1x32000000, .i32⟩
  | .hbm, ⟨7, _⟩ => ⟨S32000000, .i32⟩
  | .hbm, ⟨8, _⟩ => ⟨S_, .f32⟩
  | .hbm, ⟨9, _⟩ => ⟨S32000000, .f32⟩
  | .hbm, ⟨10, _⟩ => ⟨S_, .f32⟩
  | .hbm, ⟨11, _⟩ => ⟨S1000000, .f32⟩
  | .hbm, ⟨12, _⟩ => ⟨S32000000x1, .i32⟩
  | .hbm, ⟨13, _⟩ => ⟨S1000000, .f32⟩
  | .hbm, ⟨14, _⟩ => ⟨S_, .i32⟩
  | .hbm, ⟨15, _⟩ => ⟨S_, .f32⟩
  | .hbm, ⟨16, _⟩ => ⟨S1048576, .f32⟩
  | .hbm, ⟨17, _⟩ => ⟨S8192x128, .f32⟩
  | .hbm, ⟨18, _⟩ => ⟨S1000000, .f32⟩
  | .hbm, ⟨19, _⟩ => ⟨S_, .i32⟩
  | .hbm, ⟨20, _⟩ => ⟨S_, .f32⟩
  | .hbm, ⟨21, _⟩ => ⟨S1048576, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1048576, .f32⟩
  | .hbm, ⟨27, _⟩ => ⟨S_, .i32⟩
  | .hbm, ⟨28, _⟩ => ⟨S32000000, .i32⟩
  | .hbm, ⟨29, _⟩ => ⟨S32000000, .i1⟩
  | .hbm, ⟨30, _⟩ => ⟨S_, .i32⟩
  | .hbm, ⟨31, _⟩ => ⟨S32000000, .i32⟩
  | .hbm, ⟨32, _⟩ => ⟨S32000000, .i32⟩
  | .hbm, ⟨33, _⟩ => ⟨S32000000, .i32⟩
  | .hbm, ⟨34, _⟩ => ⟨S32000000x1, .i32⟩
  | .hbm, ⟨35, _⟩ => ⟨S32000000, .f32⟩
  | .hbm, ⟨36, _⟩ => ⟨S_, .f32⟩
  | .hbm, ⟨37, _⟩ => ⟨S1000000, .f32⟩
  | .hbm, ⟨38, _⟩ => ⟨S32000000x1, .i32⟩
  | .hbm, ⟨39, _⟩ => ⟨S1000000, .f32⟩
  | .hbm, ⟨40, _⟩ => ⟨S_, .i32⟩
  | .hbm, ⟨41, _⟩ => ⟨S_, .f32⟩
  | .hbm, ⟨42, _⟩ => ⟨S1048576, .f32⟩
  | .hbm, ⟨43, _⟩ => ⟨S8192x128, .f32⟩
  | .hbm, ⟨44, _⟩ => ⟨S1x1, .f32⟩
  | .hbm, ⟨45, _⟩ => ⟨S8192x128, .f32⟩
  | .hbm, ⟨46, _⟩ => ⟨S1048576, .f32⟩
  | .hbm, ⟨47, _⟩ => ⟨S1000000, .f32⟩
  | .hbm, ⟨48, _⟩ => ⟨S1000000x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1x1, .f32⟩
  | .local _ .vmem, ⟨18, _⟩ => ⟨S1024x128, .f32⟩
  | .local _ .vmem, ⟨19, _⟩ => ⟨S1024x128, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S_S1000000 : S_.BroadcastsInDim S1000000 (![] : Fin 0 → Fin S1000000.rank)
  bcast_S32000000_S32000000x1_0 : S32000000.BroadcastsInDim S32000000x1 (![0] : Fin 1 → Fin S32000000x1.rank)
  pads_S1000000_S1048576_0485760 : S1000000.Pads (![0] : Fin 1 → Nat) ![48576] ![0] S1048576
  h_S_ : 0 < S_.numel
  shapeCasts_S1048576_S8192x128 : S1048576.ShapeCasts S8192x128
  shapeCasts_S1000000x1_S1000000 : S1000000x1.ShapeCasts S1000000
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x128_S1048576 : S8192x128.ShapeCasts S1048576
  shapeCasts_S1_S1x1 : S1.ShapeCasts S1x1
  slices_S1048576_S1000000_0 : S1048576.Slices ![0] S1000000
  shapeCasts_S1000000_S1000000x1 : S1000000.ShapeCasts S1000000x1
  scatter_S1000000_S32000000x1_S32000000_n_0_0_1_wf : ScatterDims.WF S1000000 S32000000x1 S32000000 [] [0] [0] 1
  gather_S1048576_S32000000x1_S32000000_n_0_n_n_0_1_1_wf : GatherDims.WF S1048576 S32000000x1 S32000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf
def gather_S1048576_S32000000x1_S32000000_n_0_n_n_0_1_1 : GatherDims S1048576 S32000000x1 S32000000 where
  offsetDims := []
  collapsedSliceDims := [0]
  operandBatchingDims := []
  startIndicesBatchingDims := []
  startIndexMap := [0]
  indexVectorDim := 1
  sliceSizes := ![1]
  wf := gather_S1048576_S32000000x1_S32000000_n_0_n_n_0_1_1_wf

abbrev win0_0 : Pipeline.Window sig grid0 :=
  Pipeline.Window.ofSpec (Memref.whole main_v9) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_2) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x1 : Shape := ⟨2, ![1000000, 1]⟩
abbrev S2x32000000 : Shape := ⟨2, ![2, 32000000]⟩
abbrev S1x1 : Shape := ⟨2, ![1, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩

abbrev nBuf : Space → Nat
  | .hbm => 64
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x32000000, .i32⟩
  | .hbm, ⟨2, _⟩ => ⟨S1x1, .f32⟩
  | .hbm, ⟨3, _⟩ => ⟨S1, .f32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S33000000, .i32⟩
  | .hbm, ⟨8, _⟩ => ⟨S1x32000000, .i32⟩
  | .hbm, ⟨9, _⟩ => ⟨S32000000, .i32⟩
  | .hbm, ⟨10, _⟩ => ⟨S33000000, .i32⟩
  | .hbm, ⟨11, _⟩ => ⟨S_, .f32⟩
  | .hbm, ⟨12, _⟩ => ⟨S33000000, .f32⟩
  | .hbm, ⟨13, _⟩ => ⟨S_, .f32⟩
  | .hbm, ⟨14, _⟩ => ⟨S1000000, .f32⟩
  | .hbm, ⟨15, _⟩ => ⟨S33000000x1, .i32⟩
  | .hbm, ⟨16, _⟩ => ⟨S1000000, .f32⟩
  | .hbm, ⟨17, _⟩ => ⟨S1000000, .f32⟩
  | .hbm, ⟨18, _⟩ => ⟨S_, .i32⟩
  | .hbm, ⟨19, _⟩ => ⟨S33000000, .i32⟩
  | .hbm, ⟨20, _⟩ => ⟨S33000000, .i1⟩
  | .hbm, ⟨21, _⟩ => ⟨S_, .i32⟩
  | .hbm, ⟨22, _⟩ => ⟨S33000000, .i32⟩
  | .hbm, ⟨23, _⟩ => ⟨S33000000, .i32⟩
  | .hbm, ⟨24, _⟩ => ⟨S33000000, .i32⟩
  | .hbm, ⟨25, _⟩ => ⟨S33000000x1, .i32⟩
  | .hbm, ⟨26, _⟩ => ⟨S33000000, .f32⟩
  | .hbm, ⟨27, _⟩ => ⟨S_, .i32⟩
  | .hbm, ⟨28, _⟩ => ⟨S33000000, .i32⟩
  | .hbm, ⟨29, _⟩ => ⟨S33000000, .i1⟩
  | .hbm, ⟨30, _⟩ => ⟨S_, .i32⟩
  | .hbm, ⟨31, _⟩ => ⟨S33000000, .i32⟩
  | .hbm, ⟨32, _⟩ => ⟨S33000000, .i32⟩
  | .hbm, ⟨33, _⟩ => ⟨S33000000, .i32⟩
  | .hbm, ⟨34, _⟩ => ⟨S33000000x1, .i32⟩
  | .hbm, ⟨35, _⟩ => ⟨S33000000, .f32⟩
  | .hbm, ⟨36, _⟩ => ⟨S33000000, .f32⟩
  | .hbm, ⟨37, _⟩ => ⟨S1000000x1, .f32⟩
  | .hbm, ⟨38, _⟩ => ⟨S_, .i32⟩
  | .hbm, ⟨39, _⟩ => ⟨S33000000, .i32⟩
  | .hbm, ⟨40, _⟩ => ⟨S33000000, .i1⟩
  | .hbm, ⟨41, _⟩ => ⟨S_, .i32⟩
  | .hbm, ⟨42, _⟩ => ⟨S33000000, .i32⟩
  | .hbm, ⟨43, _⟩ => ⟨S33000000, .i32⟩
  | .hbm, ⟨44, _⟩ => ⟨S33000000, .i32⟩
  | .hbm, ⟨45, _⟩ => ⟨S33000000x1, .i32⟩
  | .hbm, ⟨46, _⟩ => ⟨S33000000x1, .f32⟩
  | .hbm, ⟨47, _⟩ => ⟨S33000000x1, .f32⟩
  | .hbm, ⟨48, _⟩ => ⟨S33000000x1, .f32⟩
  | .hbm, ⟨49, _⟩ => ⟨S_, .f32⟩
  | .hbm, ⟨50, _⟩ => ⟨S1000000x1, .f32⟩
  | .hbm, ⟨51, _⟩ => ⟨S33000000x1, .i32⟩
  | .hbm, ⟨52, _⟩ => ⟨S1000000x1, .f32⟩
  | .hbm, ⟨53, _⟩ => ⟨S1x1, .f32⟩
  | .hbm, ⟨54, _⟩ => ⟨S1000000x1, .f32⟩
  | .hbm, ⟨55, _⟩ => ⟨S1000000x1, .f32⟩
  | .hbm, ⟨56, _⟩ => ⟨S1000000x1, .f32⟩
  | .hbm, ⟨57, _⟩ => ⟨S1000000x1, .f32⟩
  | .hbm, ⟨58, _⟩ => ⟨S_, .f32⟩
  | .hbm, ⟨59, _⟩ => ⟨S1000000x1, .f32⟩
  | .hbm, ⟨60, _⟩ => ⟨S1000000x1, .f32⟩
  | .hbm, ⟨61, _⟩ => ⟨S_, .f32⟩
  | .hbm, ⟨62, _⟩ => ⟨S1000000x1, .f32⟩
  | .hbm, ⟨63, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S33000000x1_S33000000_n_0_0_1_wf : ScatterDims.WF S1000000 S33000000x1 S33000000 [] [0] [0] 1
  gather_S1000000_S33000000x1_S33000000_n_0_n_n_0_1_1_wf : GatherDims.WF S1000000 S33000000x1 S33000000 [] [0] [] [0] [] 1 ![1]
  dot_S1000000x1_S1x1_S1000000x1_1_0_0_1_n_n_wf : DotDims.WF S1000000x1 S1x1 S1000000x1 [1] [0] [0] [1] [] []
  gather_S1000000x1_S33000000x1_S33000000x1_1_0_n_n_0_1_11_wf : GatherDims.WF S1000000x1 S33000000x1 S33000000x1 [1] [0] [] [0] [] 1 ![1, 1]
  scatter_S1000000x1_S33000000x1_S33000000x1_1_0_0_1_wf : ScatterDims.WF S1000000x1 S33000000x1 S33000000x1 [1] [0] [0] 1

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf
def gather_S1000000x1_S33000000x1_S33000000x1_1_0_n_n_0_1_11 : GatherDims S1000000x1 S33000000x1 S33000000x1 where
  offsetDims := [1]
  collapsedSliceDims := [0]
  operandBatchingDims := []
  startIndicesBatchingDims := []
  startIndexMap := [0]
  indexVectorDim := 1
  sliceSizes := ![1, 1]
  wf := gather_S1000000x1_S33000000x1_S33000000x1_1_0_n_n_0_1_11_wf
def scatter_S1000000x1_S33000000x1_S33000000x1_1_0_0_1 : ScatterDims S1000000x1 S33000000x1 S33000000x1 where
  updateWindowDims := [1]
  insertedWindowDims := [0]
  scatterDimsToOperandDims := [0]
  indexVectorDim := 1
  wf := scatter_S1000000x1_S33000000x1_S33000000x1_1_0_0_1_wf

class Facts : Prop extends Facts₀ where

variable [Facts]
-- ==== Proof.KerRegion0.lean ====
/-
  What the first pipelined call leaves in its three output arrays, as whole-array functions of the arrays it
  finds on entry. The call walks eight row blocks of 1024 x 128 of the [8192, 128] arrays; at block `t` it reads
  block `t` of the padded edge-count array `d` and of the padded feature array `x`, and the one weight `w`, and
  writes block `t` of

    nrm  = 1 / sqrt (d + 1)            (the normaliser: the self-loop added to the edge count)
    msgv = (x · w) · nrm                (the message a node sends)
    slf  = nrm · msgv                   (the node's own contribution through its self-loop)

  every entry a function of the entries at the same position. The eight blocks tile the arrays, so each output
  array ends holding its function at every position.
-/
import proofs.«175105_j11141145166326_2_alg».proof.Proof.Gen.KernelIdeal.Frame
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The normaliser of a node with `d` in-edges: `1 / sqrt (d + 1)`. -/
def nrm (d : F .f32) : F .f32 := FloatOps.rsqrt (FloatOps.addf d (Scalar.ofBits .f32 0x3F800000#32))
/-- The message of a node with feature `x`: `(x · w) · nrm d`. -/
def msgv (d x w : F .f32) : F .f32 := FloatOps.mulf (FloatOps.mulf x w) (nrm d)
/-- The self-loop's contribution: `nrm d · msgv d x w`. -/
def slf (d x w : F .f32) : F .f32 := FloatOps.mulf (nrm d) (msgv d x w)

/-- The one entry of a [1, 1] array, as the body extracts it. -/
abbrev the11 (v : Vec F S1x1 .f32) : F .f32 := extractAt ![0, 0] v inpos_S1x1_p0_0

/-- The three stored values, entry by entry. -/
theorem pay1_eq (v0 : Vec F S1024x128 .f32) : k0_pay1 v0 = fun j => nrm (v0 j) := by
  unfold k0_pay1; dsimp only; rw [shapeCast_self]; rfl
theorem pay2_eq (v0 : Vec F S1024x128 .f32) (v5 : Vec F S1x1 .f32) (v7 : Vec F S1024x128 .f32) :
    k0_pay2 v0 v5 v7 = fun j => msgv (v0 j) (v7 j) (the11 v5) := by
  unfold k0_pay2; dsimp only; rw [pay1_eq, shapeCast_self]; rfl
theorem pay3_eq (v0 : Vec F S1024x128 .f32) (v5 : Vec F S1x1 .f32) (v7 : Vec F S1024x128 .f32) :
    k0_pay3 v0 v5 v7 = fun j => slf (v0 j) (v7 j) (the11 v5) := by
  unfold k0_pay3; dsimp only; rw [pay1_eq, pay2_eq]; rfl

/-- The whole-array functions. -/
abbrev G3 (d : S8192x128.Idx → Elt F .f32) : S8192x128.Idx → Elt F .f32 := fun i => nrm (d i)
abbrev G4 (d x : S8192x128.Idx → Elt F .f32) (w : F .f32) : S8192x128.Idx → Elt F .f32 := fun i => msgv (d i) (x i) w
abbrev G5 (d x : S8192x128.Idx → Elt F .f32) (w : F .f32) : S8192x128.Idx → Elt F .f32 := fun i => slf (d i) (x i) w

/-- The printed index maps over the eight points: the two array inputs and the three outputs all sit at row block
    `t`, column block 0; the weight's one block at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Point `t` writes back block `t` of `G3` of the edge-count array as the call finds it. -/
theorem flushed3_eq (c : Dev nD) (t : Fin cfg0.N) :
    (dat0 V c).flushed 3 t = ((cfg0.win 3).blk t).view.read (Elt F) (G3 (V c main_v9)) := by
  show (cfg0.win 3).cut (grid0.coords t) ((dat0 V c).after 3 t) = _
  rw [after0_3]
  unfold out0_3
  rw [View.canon_unit_zero hz]
  simp only [View.ld_unit_zero (S := S1024x128) hz]
  rw [pay1_eq]
  obtain ⟨e0, e1, e2, e3, e4, e5, e6, e7, e8, e9, e10, e11⟩ := idx_facts t
  funext j
  show nrm (V c main_v9 (((cfg0.win 0).blk t).view.emb j)) = nrm (V c main_v9 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 128 + 1 * (j 1).val = win0_3.index t (1 : Fin 2) * 128 + 1 * (j 1).val; omega
  rw [h0]

/-- An index of the array is in point `t`'s block iff each coordinate is in the block's range on its axis. -/
theorem mem_blk3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v13_0).slice (win0_3.rect t)).set ↔ _
  rw [View.set_slice_whole, Rect.mem_set_unit]
  exact Iff.rfl

/-- Every position is in the block of the point numbered by its row divided by 1024. -/
theorem cover3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  let t : Fin cfg0.N := ⟨(i 0).val / 1024, by omega⟩
  obtain ⟨e0, e1, e2, e3, e4, e5, e6, e7, e8, e9, e10, e11⟩ := idx_facts t
  have ht : t.val = (i 0).val / 1024 := rfl
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The normaliser array after the call. -/
theorem final3 (c : Dev nD) : (dat0 V c).arrAt 3 cfg0.N = G3 (V c main_v9) :=
  (dat0 V c).arrAt_eq_of_cover 3 (G3 (V c main_v9)) (fun t _ => flushed3_eq V c t) cover3

/-- The weight as the body extracts it from its block is the weight array's one entry, at every point. -/
theorem w_read (c : Dev nD) (t : Fin cfg0.N) :
    the11 (iblk0 V c 2 t) = (V c main_arg2 : S1x1.Idx → Elt F .f32) (ix2 (0 : Fin 1) (0 : Fin 1)) := by
  obtain ⟨e0, e1, e2, e3, e4, e5, e6, e7, e8, e9, e10, e11⟩ := idx_facts t
  show V c main_arg2 (((cfg0.win 2).blk t).view.emb (fun a => ⟨(![0, 0] : Fin 2 → Nat) a, inpos_S1x1_p0_0 a⟩)) = _
  refine congrArg (V c main_arg2) ?_
  funext a; apply Fin.ext
  match a with
  | ⟨0, _⟩ => show win0_2.index t (0 : Fin 2) * 1 + 1 * 0 = 0; omega
  | ⟨1, _⟩ => show win0_2.index t (1 : Fin 2) * 1 + 1 * 0 = 0; omega

/-- Point `t` writes back block `t` of `G4` of the arrays as the call finds them. -/
theorem flushed4_eq (c : Dev nD) (t : Fin cfg0.N) :
    (dat0 V c).flushed 4 t = ((cfg0.win 4).blk t).view.read (Elt F) (G4 (V c main_v9) (V c main_v12) ((V c main_arg2 : S1x1.Idx → Elt F .f32) (ix2 (0 : Fin 1) (0 : Fin 1)))) := by
  show (cfg0.win 4).cut (grid0.coords t) ((dat0 V c).after 4 t) = _
  rw [after0_4]
  unfold out0_4
  rw [View.canon_unit_zero hz]
  simp only [View.ld_unit_zero (S := S1024x128) hz, View.ld_unit_zero (S := S1x1) hz]
  rw [pay2_eq, w_read V c t]
  obtain ⟨e0, e1, e2, e3, e4, e5, e6, e7, e8, e9, e10, e11⟩ := idx_facts t
  funext j
  show msgv (V c main_v9 (((cfg0.win 0).blk t).view.emb j)) (V c main_v12 (((cfg0.win 1).blk t).view.emb j)) _
    = msgv (V c main_v9 (((cfg0.win 4).blk t).view.emb j)) (V c main_v12 (((cfg0.win 4).blk t).view.emb j)) _
  have h0 : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 128 + 1 * (j 1).val = win0_4.index t (1 : Fin 2) * 128 + 1 * (j 1).val; omega
  rw [h0, h1]

theorem mem_blk4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v13_1).slice (win0_4.rect t)).set ↔ _
  rw [View.set_slice_whole, Rect.mem_set_unit]
  exact Iff.rfl

theorem cover4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 8 := N_0
  let t : Fin cfg0.N := ⟨(i 0).val / 1024, by omega⟩
  obtain ⟨e0, e1, e2, e3, e4, e5, e6, e7, e8, e9, e10, e11⟩ := idx_facts t
  have ht : t.val = (i 0).val / 1024 := rfl
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- The message array after the call. -/
theorem final4 (c : Dev nD) : (dat0 V c).arrAt 4 cfg0.N = G4 (V c main_v9) (V c main_v12) ((V c main_arg2 : S1x1.Idx → Elt F .f32) (ix2 (0 : Fin 1) (0 : Fin 1))) :=
  (dat0 V c).arrAt_eq_of_cover 4 (G4 (V c main_v9) (V c main_v12) ((V c main_arg2 : S1x1.Idx → Elt F .f32) (ix2 (0 : Fin 1) (0 : Fin 1)))) (fun t _ => flushed4_eq V c t) cover4

/-- Point `t` writes back block `t` of `G5` of the arrays as the call finds them. -/
theorem flushed5_eq (c : Dev nD) (t : Fin cfg0.N) :
    (dat0 V c).flushed 5 t = ((cfg0.win 5).blk t).view.read (Elt F) (G5 (V c main_v9) (V c main_v12) ((V c main_arg2 : S1x1.Idx → Elt F .f32) (ix2 (0 : Fin 1) (0 : Fin 1)))) := by
  show (cfg0.win 5).cut (grid0.coords t) ((dat0 V c).after 5 t) = _
  rw [after0_5]
  unfold out0_5
  rw [View.canon_unit_zero hz]
  simp only [View.ld_unit_zero (S := S1024x128) hz, View.ld_unit_zero (S := S1x1) hz]
  rw [pay3_eq, w_read V c t]
  obtain ⟨e0, e1, e2, e3, e4, e5, e6, e7, e8, e9, e10, e11⟩ := idx_facts t
  funext j
  show slf (V c main_v9 (((cfg0.win 0).blk t).view.emb j)) (V c main_v12 (((cfg0.win 1).blk t).view.emb j)) _
    = slf (V c main_v9 (((cfg0.win 5).blk t).view.emb j)) (V c main_v12 (((cfg0.win 5).blk t).view.emb j)) _
  have h0 : ((cfg0.win 0).blk t).view.emb j = ((cfg0.win 5).blk t).view.emb j := by
    funext a; apply Fin.ext
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 1024 + 1 * (j 0).val = win0_5.index t (0 : Fin 2) * 1024 + 1 * (j 0).val; omega
    | ⟨1, _⟩ => show win0_1.index t (1 : Fin 2) * 128 + 1 * (j 1).val = win0_5.index t (1 : Fin 2) * 128 + 1 * (j 1).val; omega
  rw [h0, h1]

theorem mem_blk5 (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v13_2).slice (win0_5.rect t)).set ↔ _
  rw [View.set_slice_whole, Rect.mem_set_unit]
  exact Iff.rfl

theorem cover5 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 8 := N_0
  let t : Fin cfg0.N := ⟨(i 0).val / 1024, by omega⟩
  obtain ⟨e0, e1, e2, e3, e4, e5, e6, e7, e8, e9, e10, e11⟩ := idx_facts t
  have ht : t.val = (i 0).val / 1024 := rfl
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The self-loop array after the call. -/
theorem final5 (c : Dev nD) : (dat0 V c).arrAt 5 cfg0.N = G5 (V c main_v9) (V c main_v12) ((V c main_arg2 : S1x1.Idx → Elt F .f32) (ix2 (0 : Fin 1) (0 : Fin 1))) :=
  (dat0 V c).arrAt_eq_of_cover 5 (G5 (V c main_v9) (V c main_v12) ((V c main_arg2 : S1x1.Idx → Elt F .f32) (ix2 (0 : Fin 1) (0 : Fin 1)))) (fun t _ => flushed5_eq V c t) cover5

end Cert.KernelIdeal.Reg0

end
-- ==== Proof.KerRegion1.lean ====
/-
  What the second pipelined call leaves in its output array, as a whole-array function of the arrays it finds on
  entry. It walks the same eight row blocks of 1024 x 128; at block `t` it reads block `t` of the normaliser
  array `d`, of the padded array `s` of summed incoming messages and of the self-loop array `f`, and the one
  bias `b`, and writes block `t` of

    fin = logistic ((d · s + f) + b),

  every entry a function of the entries at the same position. The eight blocks tile the array.
-/
import proofs.«175105_j11141145166326_2_alg».proof.Proof.Gen.KernelIdeal.Frame
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The output at a node: the logistic of the normalised sum of incoming messages plus the self-loop's
    contribution plus the bias. -/
def fin (d s f b : F .f32) : F .f32 := FloatOps.logistic (FloatOps.addf (FloatOps.addf (FloatOps.mulf d s) f) b)

/-- The one entry of a [1, 1] array, as the body extracts it. -/
abbrev the11 (v : Vec F S1x1 .f32) : F .f32 := extractAt ![0, 0] v inpos_S1x1_p0_0

/-- The stored value, entry by entry. -/
theorem pay1_eq (v0 : Vec F S1x1 .f32) (v2 v4 v7 : Vec F S1024x128 .f32) :
    k1_pay1 v0 v2 v4 v7 = fun j => fin (v2 j) (v4 j) (v7 j) (the11 v0) := by
  unfold k1_pay1; dsimp only; simp only [shapeCast_self]; rfl

/-- The whole-array function. -/
abbrev G4 (d s f : S8192x128.Idx → Elt F .f32) (b : F .f32) : S8192x128.Idx → Elt F .f32 := fun i => fin (d i) (s i) (f i) b

/-- The printed index maps over the eight points: the three array inputs and the output sit at row block `t`,
    column block 0; the bias's one block at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The bias as the body extracts it from its block is the bias array's one entry, at every point. -/
theorem b_read (c : Dev nD) (t : Fin cfg1.N) :
    the11 (iblk1 V c 3 t) = (V c main_v27 : S1x1.Idx → Elt F .f32) (ix2 (0 : Fin 1) (0 : Fin 1)) := by
  obtain ⟨e0, e1, e2, e3, e4, e5, e6, e7, e8, e9⟩ := idx_facts t
  show V c main_v27 (((cfg1.win 3).blk t).view.emb (fun a => ⟨(![0, 0] : Fin 2 → Nat) a, inpos_S1x1_p0_0 a⟩)) = _
  refine congrArg (V c main_v27) ?_
  funext a; apply Fin.ext
  match a with
  | ⟨0, _⟩ => show win1_3.index t (0 : Fin 2) * 1 + 1 * 0 = 0; omega
  | ⟨1, _⟩ => show win1_3.index t (1 : Fin 2) * 1 + 1 * 0 = 0; omega

/-- Point `t` writes back block `t` of `G4` of the arrays as the call finds them. -/
theorem flushed4_eq (c : Dev nD) (t : Fin cfg1.N) :
    (dat1 V c).flushed 4 t = ((cfg1.win 4).blk t).view.read (Elt F)
      (G4 (V c main_v13_0) (V c main_v26) (V c main_v13_2) ((V c main_v27 : S1x1.Idx → Elt F .f32) (ix2 (0 : Fin 1) (0 : Fin 1)))) := by
  show (cfg1.win 4).cut (grid1.coords t) ((dat1 V c).after 4 t) = _
  rw [after1_4]
  unfold out1_4
  rw [View.canon_unit_zero hz]
  simp only [View.ld_unit_zero (S := S1024x128) hz, View.ld_unit_zero (S := S1x1) hz]
  rw [pay1_eq, b_read V c t]
  obtain ⟨e0, e1, e2, e3, e4, e5, e6, e7, e8, e9⟩ := idx_facts t
  funext j
  show fin (V c main_v13_0 (((cfg1.win 0).blk t).view.emb j)) (V c main_v26 (((cfg1.win 1).blk t).view.emb j)) (V c main_v13_2 (((cfg1.win 2).blk t).view.emb j)) _
    = fin (V c main_v13_0 (((cfg1.win 4).blk t).view.emb j)) (V c main_v26 (((cfg1.win 4).blk t).view.emb j)) (V c main_v13_2 (((cfg1.win 4).blk t).view.emb j)) _
  have h0 : ((cfg1.win 0).blk t).view.emb j = ((cfg1.win 4).blk t).view.emb j := by
    funext a; apply Fin.ext
    match a with
    | ⟨0, _⟩ => show win1_0.index t (0 : Fin 2) * 1024 + 1 * (j 0).val = win1_4.index t (0 : Fin 2) * 1024 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 1024 + 1 * (j 0).val = win1_4.index t (0 : Fin 2) * 1024 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 1024 + 1 * (j 0).val = win1_4.index t (0 : Fin 2) * 1024 + 1 * (j 0).val; omega
    | ⟨1, _⟩ => show win1_2.index t (1 : Fin 2) * 128 + 1 * (j 1).val = win1_4.index t (1 : Fin 2) * 128 + 1 * (j 1).val; omega
  rw [h0, h1, h2]

/-- An index of the array is in point `t`'s block iff each coordinate is in the block's range on its axis. -/
theorem mem_blk4 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v28).slice (win1_4.rect t)).set ↔ _
  rw [View.set_slice_whole, Rect.mem_set_unit]
  exact Iff.rfl

/-- Every position is in the block of the point numbered by its row divided by 1024. -/
theorem cover4 (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 8 := N_1
  let t : Fin cfg1.N := ⟨(i 0).val / 1024, by omega⟩
  obtain ⟨e0, e1, e2, e3, e4, e5, e6, e7, e8, e9⟩ := idx_facts t
  have ht : t.val = (i 0).val / 1024 := rfl
  refine ⟨t, flush1_4 t, ?_⟩
  rw [mem_blk4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 128 ≤ (i 1).val ∧ (i 1).val < win1_4.index t (1 : Fin 2) * 128 + 128; omega

/-- The output array after the call. -/
theorem final4 (c : Dev nD) : (dat1 V c).arrAt 4 cfg1.N
    = G4 (V c main_v13_0) (V c main_v26) (V c main_v13_2) ((V c main_v27 : S1x1.Idx → Elt F .f32) (ix2 (0 : Fin 1) (0 : Fin 1))) :=
  (dat1 V c).arrAt_eq_of_cover 4 _ (fun t _ => flushed4_eq V c t) cover4

end Cert.KernelIdeal.Reg1

end
-- ==== Proof.Spec.lean ====
/-
  The mathematics of one graph-convolution layer on a scalar feature, with self-loops and symmetric degree
  normalisation, followed by a logistic: for nodes `v < 1000000` and edges `e < 32000000` with source word
  `src e` and destination word `dst e`,

    deg v  = 1 + #{e : dst e = v}                       (the self-loop counted)
    dinv v = 1 / sqrt (deg v)
    xw v   = x v · w
    agg v  = Σ_{e : dst e = v} xw (src e) · dinv (src e) · dinv v  +  xw v · dinv v · dinv v
    out v  = 1 / (1 + exp (−(agg v + b))).

  Two arrangements of `agg` are stated, both over the extended reals: `aggRef` multiplies every message by both
  normalisers before summing; `aggKer` sums the messages `xw · dinv` of the sources first and multiplies the
  destination's normaliser once. An edge whose destination word is no node number contributes to no node. The
  source of an edge is read clamped into the node range (`srcIdx`); `SrcInRange` says no clamping happens.
-/
import Idealize.ShloMosaic.PureOps.Ideal
import Idealize.ShloMosaic.Lib.ValueIdx

noncomputable section

namespace Cert.Gcn

open Idealize.ShloMosaic Idealize.ShloMosaic.ValueIdx

/-- The node features `[1000000, 1]`, the edge list `[2, 32000000]`, the weight `[1, 1]` and the bias `[1]`. -/
abbrev SX : Shape := ⟨2, ![1000000, 1]⟩
abbrev SE : Shape := ⟨2, ![2, 32000000]⟩
abbrev SW : Shape := ⟨2, ![1, 1]⟩
abbrev SB : Shape := ⟨1, ![1]⟩

/-- An extended real that is a real number. -/
def IsReal (x : EReal) : Prop := ∃ r : ℝ, x = (r : EReal)

variable (X : SX.Idx → EReal) (ei : IVec SE 32) (Wt : SW.Idx → EReal) (B : SB.Idx → EReal)

/-- The source word of edge `e` (row 0 of the edge list). -/
def src (e : Fin 32000000) : BitVec 32 := ei (ix2 (0 : Fin 2) e)
/-- The destination word of edge `e` (row 1 of the edge list). -/
def dst (e : Fin 32000000) : BitVec 32 := ei (ix2 (1 : Fin 2) e)
/-- The source node of edge `e`: its word read signed and clamped into the node range. -/
def srcIdx (e : Fin 32000000) : Fin 1000000 := ⟨min (src ei e).toInt.toNat 999999, by omega⟩
/-- Every source word, read signed, is a node number. -/
def SrcInRange : Prop := ∀ e : Fin 32000000, 0 ≤ (src ei e).toInt ∧ (src ei e).toInt < 1000000
/-- The edges into node `v`: those whose destination word, read signed, is `v`. -/
def into (v : Fin 1000000) : Finset (Fin 32000000) := Finset.univ.filter fun e => (dst ei e).toInt = (v.val : Int)
/-- The degree of `v` with its self-loop: the edges into it counted from zero, plus one. -/
def deg (v : Fin 1000000) : EReal := (0 + ∑ _e ∈ into ei v, (1 : EReal)) + 1
/-- The normaliser `1 / sqrt (deg v)`. -/
def dinv (v : Fin 1000000) : EReal := Ideal.rsqrt (deg ei v)
/-- The linear transform of node `v`'s feature. -/
def xw (v : Fin 1000000) : EReal := X (ix2 v (0 : Fin 1)) * Wt (ix2 (0 : Fin 1) (0 : Fin 1))
/-- The message node `u` sends along each of its out-edges. -/
def msg (u : Fin 1000000) : EReal := xw X Wt u * dinv ei u
/-- The aggregate at `v`, the destination's normaliser multiplied once after the sum. -/
def aggKer (v : Fin 1000000) : EReal :=
  dinv ei v * (0 + ∑ e ∈ into ei v, msg X ei Wt (srcIdx ei e)) + dinv ei v * msg X ei Wt v
/-- The aggregate at `v`, every message multiplied by both normalisers before the sum. -/
def aggRef (v : Fin 1000000) : EReal :=
  0 + ((∑ e ∈ into ei v, xw X Wt (srcIdx ei e) * (dinv ei (srcIdx ei e) * dinv ei v))
    + xw X Wt v * (dinv ei v * dinv ei v))
/-- The layer's output at `v`. -/
def out (v : Fin 1000000) : EReal := Ideal.logistic (aggKer X ei Wt v + B (ix1 (0 : Fin 1)))

end Cert.Gcn

end
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«175105_j11141145166326_2_alg».proof.Proof.LibRowIndex
import proofs.«175105_j11141145166326_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«175105_j11141145166326_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.LibRowsLayout.lean ====
/-
  Row-wise layouts of a matrix read at coordinates, for any extents and element type:
  rows of padding added below a matrix [a, b] → [a', b] (row g of the operand is row g of the result); a pad that adds
  nothing (the identity); a vector of n entries viewed as a matrix of rows of b entries [n] → [a, b] (entry (g, j) is entry
  g · b + j); and the rows r … of a matrix sliced off, all columns kept, [a', b] → [a, b] (row f of the slice is row r + f).
  What a signal cut into hops, padded and read through shifted row windows needs.
-/
import proofs.«175105_j11141145166326_2_alg».proof.Proof.LibPad
import Idealize.ShloMosaic.Lib.Pipeline.Value
import Idealize.ShloMosaic.Lib.ValueIdx

namespace Idealize.ShloMosaic.LibRowsLayout

open Idealize.ShloMosaic Idealize.ShloMosaic.ValueIdx

section Layout
variable {α : Type}

/-- Rows added below a matrix: a row of the operand is the same row of the padded matrix. -/
theorem padRows_apply {a a' b d : ℕ} {u : Shape} (x : (⟨2, ![a, b]⟩ : Shape).Idx → α) (v : u.Idx → α)
    (h : (⟨2, ![a, b]⟩ : Shape).Pads ![0, 0] ![d, 0] ![0, 0] ⟨2, ![a', b]⟩) (hu : 0 < u.numel)
    (g : Fin a) (g' : Fin a') (j : Fin b) (hg : g'.val = g.val) :
    pad ⟨2, ![a', b]⟩ ![0, 0] ![d, 0] ![0, 0] x v h hu (ix2 g' j) = x (ix2 g j) :=
  LibPad.pad_apply_of_mem _ _ _ x v h hu _ (ix2 g j) fun ax => by
    match ax with
    | ⟨0, _⟩ => show g'.val = 0 + g.val * (0 + 1); omega
    | ⟨1, _⟩ => show j.val = 0 + j.val * (0 + 1); omega

/-- A pad that adds nothing is the identity. -/
theorem padNone_apply {n : ℕ} {u : Shape} (x : (⟨1, ![n]⟩ : Shape).Idx → α) (v : u.Idx → α)
    (h : (⟨1, ![n]⟩ : Shape).Pads ![0] ![0] ![0] ⟨1, ![n]⟩) (hu : 0 < u.numel) (k : Fin n) :
    pad ⟨1, ![n]⟩ ![0] ![0] ![0] x v h hu (ix1 k) = x (ix1 k) :=
  LibPad.pad_apply_of_mem _ _ _ x v h hu _ (ix1 k) fun ax => by
    match ax with
    | ⟨0, _⟩ => show k.val = 0 + k.val * (0 + 1); omega

/-- A vector viewed as a matrix of rows of b entries: entry (g, j) is entry g · b + j. -/
theorem reshape_rows_apply {a b n : ℕ} (x : (⟨1, ![n]⟩ : Shape).Idx → α)
    (h : (⟨1, ![n]⟩ : Shape).ShapeCasts ⟨2, ![a, b]⟩) (g : Fin a) (j : Fin b) (k : Fin n) (hk : k.val = g.val * b + j.val) :
    shapeCast ⟨2, ![a, b]⟩ x h (ix2 g j) = x (ix1 k) :=
  shapeCast_apply x h _ _ (by
    rw [Shape.rowMajor_val_one, Shape.rowMajor_val_two]
    show k.val = g.val * b + j.val
    exact hk)

/-- Rows r … of a matrix: row f of the slice is row r + f. -/
theorem sliceRows_apply {a a' b r : ℕ} (x : (⟨2, ![a', b]⟩ : Shape).Idx → α)
    (h : (⟨2, ![a', b]⟩ : Shape).Slices ![r, 0] ⟨2, ![a, b]⟩) (f : Fin a) (j : Fin b) (g : Fin a') (hg : g.val = r + f.val) :
    extractStridedSlice ⟨2, ![a, b]⟩ ![r, 0] x h (ix2 f j) = x (ix2 g j) :=
  extractStridedSlice_apply _ x h _ _ fun ax => by
    match ax with
    | ⟨0, _⟩ => show g.val = r + f.val; exact hg
    | ⟨1, _⟩ => show j.val = 0 + j.val; omega

end Layout

end Idealize.ShloMosaic.LibRowsLayout
-- ==== Proof.LibSqueeze.lean ====
/-
  A column squeezed to a vector, read at coordinates: an `[a, 1]` array cast to `[a]` reads, at `i`, the column at `(i, 0)`
  — what a kernel's `out[:, 0]` of a keepdims column is on the host. (The row form `[1, a] → [a]` is the library's
  `shapeCast_1a_a_apply`.)
-/
import Idealize.ShloMosaic.Lib.ValueIdx
import Idealize.ShloMosaic.Lib.Pipeline.Value

namespace Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KerHost.lean ====
/-
  The host side of the program, read at a node. Between the launch and the first pipelined call, between the two calls,
  and after the second, the program runs host operations on whole arrays: it counts the edges into every node (ones
  scattered into zeros at the column of destination words), pads the counts and the features from `1000000` to
  `1048576 = 8192 · 128` entries and views them as `[8192, 128]`; it gathers the first call's message array at the
  column of source words (a negative word moved up by `1048576`, then clamped), scatters the gathered messages into
  zeros at the destination column, pads and views the sums the same way; and it flattens the second call's output,
  keeps the first `1000000` entries and views them as a column.

  Node `v` sits at row `v / 128`, lane `v % 128` of the padded arrays (`pos v`), the padding after the last node,
  so the padding value is never read at a node. An accumulating scatter of a vector at a column of words is, at `v`,
  the sum over the edges whose word, read signed, is `v`; a gather at a word that is a node number reads that node's
  entry. The statements `H0a` … `H2` say what each array the two calls read, and the result, hold at `pos v`.
-/
import proofs.«175105_j11141145166326_2_alg».proof.Proof.Gen.KernelIdeal.Frame
import proofs.«175105_j11141145166326_2_alg».proof.Proof.Spec
import proofs.«175105_j11141145166326_2_alg».proof.Proof.LibVecIndex
import proofs.«175105_j11141145166326_2_alg».proof.Proof.LibPad
import proofs.«175105_j11141145166326_2_alg».proof.Proof.LibRowsLayout
import proofs.«175105_j11141145166326_2_alg».proof.Proof.LibSqueeze
import Idealize.ShloMosaic.Lib.StableHlo.Run
import Idealize.ShloMosaic.Lib.IdealHost
import Idealize.ShloMosaic.Lib.Pipeline.Value
import Idealize.ShloMosaic.Lib.ValueIdx

set_option maxRecDepth 16384
set_option Elab.async false

noncomputable section

namespace Cert.KernelIdeal.HostRead

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable (m : (ℓ : Loc nD τ sig) → Buf (Elt Ideal) ℓ) (ρ : Dev nD → PrngReg)

/-! ## Positions -/

/-- Node `v`'s position in the padded `[8192, 128]` arrays: row `v / 128`, lane `v % 128`
    (`1000000 ≤ 1048576 = 8192 · 128`, the padding at the end). -/
abbrev pos (v : Fin 1000000) : S8192x128.Idx :=
  ix2 (⟨v.val / 128, by have := v.isLt; omega⟩ : Fin 8192) (⟨v.val % 128, Nat.mod_lt _ (by omega)⟩ : Fin 128)

/-- Node `v`'s position in the padded flat `[1048576]` arrays: `v` itself. -/
abbrev flat (v : Fin 1000000) : Fin 1048576 := ⟨v.val, by have := v.isLt; omega⟩

section Layout
variable {α : Type}

/-- A flat `[1048576]` array viewed as `[8192, 128]`, at node `v`'s position, is the flat array at `v`. -/
theorem rows_apply (x : S1048576.Idx → α) (v : Fin 1000000) :
    shapeCast S8192x128 x Facts₀.shapeCasts_S1048576_S8192x128 (pos v) = x (ix1 (flat v)) :=
  LibRowsLayout.reshape_rows_apply x Facts₀.shapeCasts_S1048576_S8192x128 _ _ (flat v)
    (by show v.val = v.val / 128 * 128 + v.val % 128; omega)

/-- An `[8192, 128]` array flattened to `[1048576]`, at `v`, is the array at node `v`'s position. -/
theorem flat_apply (y : S8192x128.Idx → α) (v : Fin 1000000) :
    shapeCast S1048576 y Facts₀.shapeCasts_S8192x128_S1048576 (ix1 (flat v)) = y (pos v) :=
  shapeCast_apply y Facts₀.shapeCasts_S8192x128_S1048576 (ix1 (flat v)) (pos v)
    (by rw [Shape.rowMajor_val_two, Shape.rowMajor_val_one]; show v.val / 128 * 128 + v.val % 128 = v.val; omega)

/-- A `[1000000]` array padded at the end to `[1048576]`, at `v`, is the array at `v`: the padding value is not
    read. -/
theorem pad_apply (x : S1000000.Idx → α) (pv : S_.Idx → α) (v : Fin 1000000) :
    pad S1048576 ![0] ![48576] ![0] x pv Facts₀.pads_S1000000_S1048576_0485760 Facts₀.h_S_ (ix1 (flat v)) = x (ix1 v) :=
  LibPad.pad_apply_of_mem _ _ _ x pv Facts₀.pads_S1000000_S1048576_0485760 Facts₀.h_S_ _ (ix1 v) fun a => by
    match a with
    | ⟨0, _⟩ => show v.val = 0 + v.val * (0 + 1); omega

/-- Padded and then viewed as rows: at node `v`'s position, the array at `v`. -/
theorem rows_pad_apply (x : S1000000.Idx → α) (pv : S_.Idx → α) (v : Fin 1000000) :
    shapeCast S8192x128 (pad S1048576 ![0] ![48576] ![0] x pv Facts₀.pads_S1000000_S1048576_0485760 Facts₀.h_S_)
      Facts₀.shapeCasts_S1048576_S8192x128 (pos v) = x (ix1 v) :=
  (rows_apply _ v).trans (pad_apply x pv v)

/-- The first `1000000` entries of a `[1048576]` array, at `v`. -/
theorem head_apply (x : S1048576.Idx → α) (v : Fin 1000000) :
    extractStridedSlice S1000000 ![0] x Facts₀.slices_S1048576_S1000000_0 (ix1 v) = x (ix1 (flat v)) :=
  extractStridedSlice_apply ![0] x Facts₀.slices_S1048576_S1000000_0 (ix1 v) (ix1 (flat v)) fun a => by
    match a with
    | ⟨0, _⟩ => show v.val = 0 + v.val; omega

/-- Row `r` of the `[2, 32000000]` edge list, flattened to `[32000000]`, read at `e` is the entry `(r, e)`. -/
theorem row0_apply (A : S2x32000000.Idx → α) (e : Fin 32000000) :
    shapeCast S32000000 (extractStridedSlice S1x32000000 ![0, 0] A Facts₀.slices_S2x32000000_S1x32000000_0_0)
      Facts₀.shapeCasts_S1x32000000_S32000000 (ix1 e) = A (ix2 (0 : Fin 2) e) := by
  generalize hy : extractStridedSlice S1x32000000 ![0, 0] A Facts₀.slices_S2x32000000_S1x32000000_0_0 = y
  rw [shapeCast_apply y Facts₀.shapeCasts_S1x32000000_S32000000 (ix1 e) (ix2 (0 : Fin 1) e)
    (by rewrite [Shape.rowMajor_val_two, Shape.rowMajor_val_one]; show 0 * 32000000 + e.val = e.val; omega)]
  subst hy
  exact extractStridedSlice_apply ![0, 0] A _ (ix2 (0 : Fin 1) e) (ix2 (0 : Fin 2) e) (fun a => match a with
    | ⟨0, _⟩ => by show (0 : Nat) = 0 + 0; rfl
    | ⟨1, _⟩ => by show e.val = 0 + e.val; omega)
theorem row1_apply (A : S2x32000000.Idx → α) (e : Fin 32000000) :
    shapeCast S32000000 (extractStridedSlice S1x32000000 ![1, 0] A Facts₀.slices_S2x32000000_S1x32000000_1_0)
      Facts₀.shapeCasts_S1x32000000_S32000000 (ix1 e) = A (ix2 (1 : Fin 2) e) := by
  generalize hy : extractStridedSlice S1x32000000 ![1, 0] A Facts₀.slices_S2x32000000_S1x32000000_1_0 = y
  rw [shapeCast_apply y Facts₀.shapeCasts_S1x32000000_S32000000 (ix1 e) (ix2 (0 : Fin 1) e)
    (by rewrite [Shape.rowMajor_val_two, Shape.rowMajor_val_one]; show 0 * 32000000 + e.val = e.val; omega)]
  subst hy
  exact extractStridedSlice_apply ![1, 0] A _ (ix2 (0 : Fin 1) e) (ix2 (1 : Fin 2) e) (fun a => match a with
    | ⟨0, _⟩ => by show (1 : Nat) = 1 + 0; rfl
    | ⟨1, _⟩ => by show e.val = 0 + e.val; omega)

end Layout

/-! ## The edge words, the scatter into the destinations, and the gather at the sources -/

section Sums
open Idealize.ShloMosaic.RowIndex

/-- The source words as a vector: row 0 of the edge list. -/
abbrev srcVec (A : IVec S2x32000000 32) : IVec S32000000 32 :=
  shapeCast S32000000 (extractStridedSlice S1x32000000 ![0, 0] A Facts₀.slices_S2x32000000_S1x32000000_0_0)
    Facts₀.shapeCasts_S1x32000000_S32000000
/-- The destination words as a vector: row 1 of the edge list. -/
abbrev dstVec (A : IVec S2x32000000 32) : IVec S32000000 32 :=
  shapeCast S32000000 (extractStridedSlice S1x32000000 ![1, 0] A Facts₀.slices_S2x32000000_S1x32000000_1_0)
    Facts₀.shapeCasts_S1x32000000_S32000000
/-- A vector of words laid out as a column. -/
abbrev col (x : IVec S32000000 32) : IVec S32000000x1 32 :=
  broadcastInDim S32000000x1 ![0] Facts₀.bcast_S32000000_S32000000x1_0 x
/-- A word repeated along the edges. -/
abbrev rep (b : BitVec 32) : IVec S32000000 32 :=
  broadcastInDim S32000000 ![] Facts₀.bcast_S_S32000000 (constantI S_ 32 b)
/-- The zero vector over the nodes. -/
abbrev zeros : FVec Ideal S1000000 .f32 :=
  broadcastInDim S1000000 ![] Facts₀.bcast_S_S1000000 (constant (F := Ideal) S_ .f32 0x00000000#32)
/-- The vector of ones over the edges. -/
abbrev ones : FVec Ideal S32000000 .f32 :=
  broadcastInDim S32000000 ![] Facts₀.bcast_S_S32000000 (constant (F := Ideal) S_ .f32 0x3F800000#32)
/-- A source word as the gather reads it: a negative word moved up by the padded length. -/
abbrev wrapVec (A : IVec S2x32000000 32) : IVec S32000000 32 :=
  select (cmpi .slt (srcVec A) (rep 0#32)) (addi (srcVec A) (rep 1048576#32)) (srcVec A)

theorem srcVec_apply (A : IVec S2x32000000 32) (e : Fin 32000000) : srcVec A (ix1 e) = A (ix2 (0 : Fin 2) e) :=
  row0_apply A e
theorem dstVec_apply (A : IVec S2x32000000 32) (e : Fin 32000000) : dstVec A (ix1 e) = A (ix2 (1 : Fin 2) e) :=
  row1_apply A e
theorem rep_apply (b : BitVec 32) (e : Fin 32000000) : rep b (ix1 e) = b := rfl
theorem zeros_apply (v : Fin 1000000) : zeros (ix1 v) = 0 := Ideal.ofBits_zero_f32
theorem ones_apply (e : Fin 32000000) : ones (ix1 e) = 1 := Ideal.ofBits_one_f32
theorem wrapVec_apply (A : IVec S2x32000000 32) (e : Fin 32000000) :
    wrapVec A (ix1 e) = Scalar.select (IntOp.cmpi .slt (A (ix2 (0 : Fin 2) e)) 0#32)
      (IntOp.addi (A (ix2 (0 : Fin 2) e)) 1048576#32) (A (ix2 (0 : Fin 2) e)) := by
  show Scalar.select (IntOp.cmpi .slt (srcVec A (ix1 e)) (rep 0#32 (ix1 e)))
    (IntOp.addi (srcVec A (ix1 e)) (rep 1048576#32 (ix1 e))) (srcVec A (ix1 e)) = _
  rw [rep_apply, rep_apply, srcVec_apply]

/-- The edges whose destination column entry is `v` are the edges into `v`. -/
theorem rowsTo_dst (A : IVec S2x32000000 32) (v : Fin 1000000) :
    rowsTo 32000000 (col (dstVec A)) v.val = Cert.Gcn.into A v := by
  rw [rowsTo_column]
  unfold Cert.Gcn.into Cert.Gcn.dst
  refine Finset.filter_congr fun e _ => ?_
  rw [dstVec_apply]

/-- The accumulating scatter of a vector of edge values into zeros at the destination column is, at node `v`, zero
    plus the sum of the values over the edges into `v`. -/
theorem scatter_apply (A : IVec S2x32000000 32) (upd : FVec Ideal S32000000 .f32) (v : Fin 1000000) :
    Host.scatterAdd scatter_S1000000_S32000000x1_S32000000_n_0_0_1 zeros (col (dstVec A)) upd (ix1 v)
      = 0 + ∑ e ∈ Cert.Gcn.into A v, upd (ix1 e) := by
  rw [show scatter_S1000000_S32000000x1_S32000000_n_0_0_1
    = vecScatter 1000000 32000000 Facts₀.scatter_S1000000_S32000000x1_S32000000_n_0_0_1_wf from rfl]
  rw [scatterAdd_vec_apply, rowsTo_dst, zeros_apply]

/-- A source word in the node range names its source node. -/
theorem src_toInt (A : IVec S2x32000000 32) (hr : Cert.Gcn.SrcInRange A) (e : Fin 32000000) :
    (A (ix2 (0 : Fin 2) e)).toInt = ((Cert.Gcn.srcIdx A e).val : Int) := by
  have h := hr e
  show (Cert.Gcn.src A e).toInt = ((min (Cert.Gcn.src A e).toInt.toNat 999999 : Nat) : Int)
  omega

/-- The gather of a flat padded array at the column of wrapped source words reads, at edge `e`, the array at the
    source node of `e`: a source word in the node range is neither wrapped nor clamped. -/
theorem gather_apply (A : IVec S2x32000000 32) (hr : Cert.Gcn.SrcInRange A) (U : FVec Ideal S1048576 .f32)
    (e : Fin 32000000) :
    Host.gather gather_S1048576_S32000000x1_S32000000_n_0_n_n_0_1_1 U (col (wrapVec A)) (ix1 e)
      = U (ix1 (flat (Cert.Gcn.srcIdx A e))) := by
  rw [show gather_S1048576_S32000000x1_S32000000_n_0_n_n_0_1_1
    = vecDims 1048576 32000000 Facts₀.gather_S1048576_S32000000x1_S32000000_n_0_n_n_0_1_1_wf from rfl]
  rw [gather_vec_apply 1048576 32000000 (by omega)]
  refine congrArg U (congrArg (fun k : Fin 1048576 => ix1 k) (Fin.ext ?_))
  show min (col (wrapVec A) (atRow e)).toInt.toNat (1048576 - 1) = (Cert.Gcn.srcIdx A e).val
  rw [show col (wrapVec A) (atRow e) = wrapVec A (ix1 e) from
    broadcastInDim_a_a1_apply (wrapVec A) Facts₀.bcast_S32000000_S32000000x1_0 e _, wrapVec_apply]
  exact wrap_clamp_of_toInt_eq (N := 1048576) _ _ _ (by have := (Cert.Gcn.srcIdx A e).isLt; omega) (src_toInt A hr e)

end Sums

/-! ## The boundaries' contents as plain terms

Each boundary's contents at a buffer is the fold of the host operations before it: the operations' functions applied
to the contents further back. A padded array is stated in two steps: the array that is padded, then the padding and
the view as rows of whatever array that is. -/

section Boundaries

/-- A node vector padded to `[1048576]` with the converted word `p` and viewed as `[8192, 128]`. -/
abbrev padRows (x : FVec Ideal S1000000 .f32) (p : IVec S_ 32) : FVec Ideal S8192x128 .f32 :=
  shapeCast S8192x128 (pad S1048576 ![0] ![48576] ![0] x (sitofp .f32 p) Facts₀.pads_S1000000_S1048576_0485760 Facts₀.h_S_)
    Facts₀.shapeCasts_S1048576_S8192x128

theorem padRows_apply (x : FVec Ideal S1000000 .f32) (p : IVec S_ 32) (v : Fin 1000000) :
    padRows x p (pos v) = x (ix1 v) :=
  rows_pad_apply x (sitofp .f32 p) v

/-- The edge counts: ones scattered into zeros at the destination column. -/
theorem W1_v7 (c : Dev nD) : W1 m ρ c (Proc.devRef .tc main_v7)
    = Host.scatterAdd scatter_S1000000_S32000000x1_S32000000_n_0_0_1 zeros (col (dstVec (m ((c : Thread nD τ).loc main_arg1)))) ones := by
  show StableHlo.after hostOps0 (W0 m ρ c) (Proc.devRef .tc main_v7) = _
  after_results
  rfl

/-- Entry of the first call: the edge counts, padded and viewed as rows. -/
theorem W5_v9 (c : Dev nD) : W5 m ρ c (Proc.devRef .tc main_v9)
    = padRows (W1 m ρ c (Proc.devRef .tc main_v7)) (W1 m ρ c (Proc.devRef .tc main_c)) := by
  show StableHlo.after hostOps0_4 (StableHlo.after hostOps0_3 (StableHlo.after hostOps0_2
    (StableHlo.after hostOps0_1 (W1 m ρ c)))) (Proc.devRef .tc main_v9)
      = padRows (W1 m ρ c (Proc.devRef .tc main_v7)) (W1 m ρ c (Proc.devRef .tc main_c))
  generalize W1 m ρ c = V1
  after_results
  rfl

/-- Entry of the first call: the features, padded and viewed as rows. -/
theorem W5_v12 (c : Dev nD) : W5 m ρ c (Proc.devRef .tc main_v12)
    = padRows (shapeCast S1000000 (m ((c : Thread nD τ).loc main_arg0)) Facts₀.shapeCasts_S1000000x1_S1000000)
        (constantI S_ 32 0#32) := by
  show StableHlo.after hostOps0_4 (W4 m ρ c) (Proc.devRef .tc main_v12) = _
  after_results
  rfl

/-- The source words, the destination words and the bias, which the first call leaves as it found them. -/
theorem W6_v1 (c : Dev nD) : W6 m ρ c (Proc.devRef .tc main_v1) = srcVec (m ((c : Thread nD τ).loc main_arg1)) := by
  refine (W6_of_ne m ρ c main_v1 (by decide)).trans ?_
  show StableHlo.after hostOps0_4 (W4 m ρ c) (Proc.devRef .tc main_v1) = _
  after_results
  rfl
theorem W6_v3 (c : Dev nD) : W6 m ρ c (Proc.devRef .tc main_v3) = dstVec (m ((c : Thread nD τ).loc main_arg1)) := by
  refine (W6_of_ne m ρ c main_v3 (by decide)).trans ?_
  show StableHlo.after hostOps0_4 (W4 m ρ c) (Proc.devRef .tc main_v3) = _
  after_results
  rfl
theorem W6_arg3 (c : Dev nD) : W6 m ρ c (Proc.devRef .tc main_arg3) = m ((c : Thread nD τ).loc main_arg3) := by
  refine (W6_of_ne m ρ c main_arg3 (by decide)).trans ?_
  show StableHlo.after hostOps0_4 (W4 m ρ c) (Proc.devRef .tc main_arg3) = _
  after_results
  all_goals rfl

/-- The aggregated messages: the messages gathered at the wrapped source column, scattered into zeros at the
    destination column. -/
theorem W7_v24 (c : Dev nD) : W7 m ρ c (Proc.devRef .tc main_v24)
    = Host.scatterAdd scatter_S1000000_S32000000x1_S32000000_n_0_0_1 zeros (col (W6 m ρ c (Proc.devRef .tc main_v3)))
        (Host.gather gather_S1048576_S32000000x1_S32000000_n_0_n_n_0_1_1
          (shapeCast S1048576 (W6 m ρ c (Proc.devRef .tc main_v13_1)) Facts₀.shapeCasts_S8192x128_S1048576)
          (col (select (cmpi .slt (W6 m ρ c (Proc.devRef .tc main_v1)) (rep 0#32))
            (addi (W6 m ρ c (Proc.devRef .tc main_v1)) (rep 1048576#32)) (W6 m ρ c (Proc.devRef .tc main_v1))))) := by
  show StableHlo.after hostOps1 (W6 m ρ c) (Proc.devRef .tc main_v24) = _
  after_results
  rfl

/-- Entry of the second call: the aggregated messages, padded and viewed as rows. -/
theorem W9_v26 (c : Dev nD) : W9 m ρ c (Proc.devRef .tc main_v26)
    = padRows (W7 m ρ c (Proc.devRef .tc main_v24)) (W7 m ρ c (Proc.devRef .tc main_c_5)) := by
  show StableHlo.after hostOps1_2 (StableHlo.after hostOps1_1 (W7 m ρ c)) (Proc.devRef .tc main_v26)
    = padRows (W7 m ρ c (Proc.devRef .tc main_v24)) (W7 m ρ c (Proc.devRef .tc main_c_5))
  generalize W7 m ρ c = V7
  after_results
  rfl

/-- Entry of the second call: the bias viewed as `[1, 1]`. -/
theorem W9_v27 (c : Dev nD) : W9 m ρ c (Proc.devRef .tc main_v27)
    = shapeCast S1x1 (W6 m ρ c (Proc.devRef .tc main_arg3)) Facts₀.shapeCasts_S1_S1x1 := by
  show StableHlo.after hostOps1_2 (W8 m ρ c) (Proc.devRef .tc main_v27) = _
  after_results
  rfl

/-- The result: the second call's output flattened, cut to the nodes and viewed as a column. -/
theorem W11_v31 (c : Dev nD) : W11 m ρ c (Proc.devRef .tc main_v31)
    = shapeCast S1000000x1 (extractStridedSlice S1000000 ![0]
        (shapeCast S1048576 (W10 m ρ c (Proc.devRef .tc main_v28)) Facts₀.shapeCasts_S8192x128_S1048576)
        Facts₀.slices_S1048576_S1000000_0) Facts₀.shapeCasts_S1000000_S1000000x1 := by
  show StableHlo.after hostOps2 (W10 m ρ c) (Proc.devRef .tc main_v31) = _
  after_results
  rfl

end Boundaries

/-! ## The host side read at a node -/

section Reads

/-- Entry of the first call: at node `v`'s position the padded count array holds the number of edges into `v`,
    counted from zero. -/
theorem H0a (c : Dev nD) (v : Fin 1000000) :
    (W5 m ρ c (Proc.devRef .tc main_v9) : S8192x128.Idx → EReal) (pos v)
      = 0 + ∑ _e ∈ Cert.Gcn.into (m ((c : Thread nD τ).loc main_arg1) : IVec Cert.Gcn.SE 32) v, (1 : EReal) := by
  refine (congrFun (W5_v9 m ρ c) (pos v)).trans ?_
  rw [padRows_apply, W1_v7, scatter_apply]
  exact congrArg (0 + ·) (Finset.sum_congr rfl fun e _ => ones_apply e)

/-- Entry of the first call: at node `v`'s position the padded feature array holds `v`'s feature. -/
theorem H0b (c : Dev nD) (v : Fin 1000000) :
    (W5 m ρ c (Proc.devRef .tc main_v12) : S8192x128.Idx → EReal) (pos v)
      = (m ((c : Thread nD τ).loc main_arg0) : Cert.Gcn.SX.Idx → EReal) (ix2 v (0 : Fin 1)) := by
  refine (congrFun (W5_v12 m ρ c) (pos v)).trans ?_
  rw [padRows_apply]
  exact shapeCast_a1_a_apply _ Facts₀.shapeCasts_S1000000x1_S1000000 v

/-- Entry of the first call: the weight as launched. -/
theorem H0c (c : Dev nD) : W5 m ρ c (Proc.devRef .tc main_arg2) = m ((c : Thread nD τ).loc main_arg2) := by
  show StableHlo.after hostOps0_4 (W4 m ρ c) (Proc.devRef .tc main_arg2) = _
  after_results
  all_goals rfl

/-- Entry of the second call: the first call's normaliser and self-loop arrays as it left them. -/
theorem H1a_0 (c : Dev nD) : W9 m ρ c (Proc.devRef .tc main_v13_0) = W6 m ρ c (Proc.devRef .tc main_v13_0) := by
  show StableHlo.after hostOps1_2 (W8 m ρ c) (Proc.devRef .tc main_v13_0) = _
  after_results
  all_goals rfl
theorem H1a_2 (c : Dev nD) : W9 m ρ c (Proc.devRef .tc main_v13_2) = W6 m ρ c (Proc.devRef .tc main_v13_2) := by
  show StableHlo.after hostOps1_2 (W8 m ρ c) (Proc.devRef .tc main_v13_2) = _
  after_results
  all_goals rfl

/-- Entry of the second call: when every source word is a node number, the padded aggregate array holds at node
    `v`'s position the sum, over the edges into `v` and from zero, of the first call's message array `Y` at the
    source node's position. -/
theorem H1b (c : Dev nD) (hr : Cert.Gcn.SrcInRange (m ((c : Thread nD τ).loc main_arg1) : IVec Cert.Gcn.SE 32))
    (Y : S8192x128.Idx → EReal) (hY : W6 m ρ c (Proc.devRef .tc main_v13_1) = Y) (v : Fin 1000000) :
    (W9 m ρ c (Proc.devRef .tc main_v26) : S8192x128.Idx → EReal) (pos v)
      = 0 + ∑ e ∈ Cert.Gcn.into (m ((c : Thread nD τ).loc main_arg1) : IVec Cert.Gcn.SE 32) v, Y (pos (Cert.Gcn.srcIdx (m ((c : Thread nD τ).loc main_arg1) : IVec Cert.Gcn.SE 32) e)) := by
  subst hY
  refine (congrFun (W9_v26 m ρ c) (pos v)).trans ?_
  rw [padRows_apply, W7_v24, W6_v1, W6_v3]
  refine (scatter_apply _ _ v).trans ?_
  refine congrArg (0 + ·) (Finset.sum_congr rfl fun e _ => ?_)
  exact (gather_apply _ hr _ e).trans (flat_apply _ _)

/-- Entry of the second call: the one entry of the `[1, 1]` bias array is the bias. -/
theorem H1c (c : Dev nD) :
    (W9 m ρ c (Proc.devRef .tc main_v27) : S1x1.Idx → EReal) (ix2 (0 : Fin 1) (0 : Fin 1))
      = (m ((c : Thread nD τ).loc main_arg3) : Cert.Gcn.SB.Idx → EReal) (ix1 (0 : Fin 1)) := by
  refine (congrFun (W9_v27 m ρ c) _).trans ?_
  rw [W6_arg3]
  exact LibRowsLayout.reshape_rows_apply _ Facts₀.shapeCasts_S1_S1x1 (0 : Fin 1) (0 : Fin 1) (0 : Fin 1) rfl

/-- The result at node `v` is the second call's output array at `v`'s position. -/
theorem H2 (c : Dev nD) (v : Fin 1000000) :
    (W11 m ρ c (Proc.devRef .tc main_v31) : S1000000x1.Idx → EReal) (ix2 v (0 : Fin 1))
      = (W10 m ρ c (Proc.devRef .tc main_v28) : S8192x128.Idx → EReal) (pos v) := by
  refine (congrFun (W11_v31 m ρ c) _).trans ?_
  rw [LibRowsLayout.reshape_rows_apply _ Facts₀.shapeCasts_S1000000_S1000000x1 v (0 : Fin 1) v
    (by show v.val = v.val * 1 + 0; omega), head_apply, flat_apply]

end Reads

end Cert.KernelIdeal.HostRead

end
-- ==== Proof.KerValue.lean ====
/-
  The idealized kernel's result at a node, read back to the arguments.

  Node `v` sits at row `v / 128`, lane `v % 128` of the padded [8192, 128] arrays (1000000 ≤ 8192 · 128, the
  padding at the end, never read at a node). Reading the last boundary back through the segments:
  the result at `(v, 0)` is the second call's output at `v`'s position; that is the logistic of
  `d · s + f + b` of the entries of the normaliser array `d`, the summed-messages array `s` and the self-loop
  array `f` at that position and the bias; `d` and `f` are the first call's outputs, `1 / sqrt (c + 1)` and
  `d · ((x · w) · d)` of the edge count `c` into `v` and the feature `x v`; and `s` at `v` is the sum, over the edges
  into `v`, of the first call's message array `(x · w) · d` at the source's position — the source word of an edge
  is a node number by hypothesis, so neither the negative-index wrap nor the clamp of the gather moves it.
  Put together this is the specification's `out`.
-/
import proofs.«175105_j11141145166326_2_alg».proof.Proof.KerRun
import proofs.«175105_j11141145166326_2_alg».proof.Proof.KerRegion0
import proofs.«175105_j11141145166326_2_alg».proof.Proof.KerRegion1
import proofs.«175105_j11141145166326_2_alg».proof.Proof.Spec
import Idealize.ShloMosaic.Lib.IdealHost
import proofs.«175105_j11141145166326_2_alg».proof.Proof.LibIdealBits
import proofs.«175105_j11141145166326_2_alg».proof.Proof.KerHost
set_option maxRecDepth 16384

noncomputable section

namespace Cert.KernelIdeal.KerValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

open Cert.KernelIdeal.HostRead (pos)

/-- The four entrywise functions at the exact instance, as extended-real expressions. -/
theorem nrm_ideal (d : EReal) : Reg0.nrm (F := Ideal) d = Ideal.rsqrt (d + 1) := by
  unfold Reg0.nrm
  rw [Cert.LibIdealBits.scalar_ofBits, Ideal.ofBits_one_f32]
  rfl
theorem msgv_ideal (d x w : EReal) : Reg0.msgv (F := Ideal) d x w = x * w * Ideal.rsqrt (d + 1) := by
  unfold Reg0.msgv
  rw [nrm_ideal]
  rfl
theorem slf_ideal (d x w : EReal) : Reg0.slf (F := Ideal) d x w = Ideal.rsqrt (d + 1) * (x * w * Ideal.rsqrt (d + 1)) := by
  unfold Reg0.slf
  rw [nrm_ideal, msgv_ideal]
  rfl
theorem fin_ideal (d s f b : EReal) : Reg1.fin (F := Ideal) d s f b = Ideal.logistic (d * s + f + b) := by
  unfold Reg1.fin
  rfl

/-- The three arrays the first call leaves, and the one the second call leaves, as functions of what each call
    finds on entry. -/
theorem W6_nrm (c : Dev nD) : W6 m ρ c (Proc.devRef .tc main_v13_0) = Reg0.G3 (V5 m ρ c main_v9) :=
  (W6_arr m ρ c 3).trans (Reg0.final3 (V5 m ρ) c)
theorem W6_msg (c : Dev nD) : W6 m ρ c (Proc.devRef .tc main_v13_1)
    = Reg0.G4 (V5 m ρ c main_v9) (V5 m ρ c main_v12) ((V5 m ρ c main_arg2 : S1x1.Idx → EReal) (ix2 (0 : Fin 1) (0 : Fin 1))) :=
  (W6_arr m ρ c 4).trans (Reg0.final4 (V5 m ρ) c)
theorem W6_slf (c : Dev nD) : W6 m ρ c (Proc.devRef .tc main_v13_2)
    = Reg0.G5 (V5 m ρ c main_v9) (V5 m ρ c main_v12) ((V5 m ρ c main_arg2 : S1x1.Idx → EReal) (ix2 (0 : Fin 1) (0 : Fin 1))) :=
  (W6_arr m ρ c 5).trans (Reg0.final5 (V5 m ρ) c)
theorem W10_out (c : Dev nD) : W10 m ρ c (Proc.devRef .tc main_v28)
    = Reg1.G4 (V9 m ρ c main_v13_0) (V9 m ρ c main_v26) (V9 m ρ c main_v13_2) ((V9 m ρ c main_v27 : S1x1.Idx → EReal) (ix2 (0 : Fin 1) (0 : Fin 1))) :=
  (W10_arr m ρ c 4).trans (Reg1.final4 (V9 m ρ) c)

/-- The first call's three arrays at a node's position, in the specification's terms. -/
theorem nrm_at (c : Dev nD) (u : Fin 1000000) :
    (W6 m ρ c (Proc.devRef .tc main_v13_0) : S8192x128.Idx → EReal) (pos u) = Cert.Gcn.dinv (m ((c : Thread nD τ).loc main_arg1)) u := by
  rw [W6_nrm]
  show Reg0.nrm (F := Ideal) (W5 m ρ c (Proc.devRef .tc main_v9) (pos u)) = _
  rw [HostRead.H0a m ρ c u, nrm_ideal]
  unfold Cert.Gcn.dinv Cert.Gcn.deg
  with_reducible rfl
/-- The message array the first call leaves, as a function on the padded positions. -/
def msgArr (c : Dev nD) : S8192x128.Idx → EReal := W6 m ρ c (Proc.devRef .tc main_v13_1)
theorem msg_at (c : Dev nD) (u : Fin 1000000) :
    msgArr m ρ c (pos u) = Cert.Gcn.msg (m ((c : Thread nD τ).loc main_arg0)) (m ((c : Thread nD τ).loc main_arg1)) (m ((c : Thread nD τ).loc main_arg2)) u := by
  unfold msgArr
  rw [W6_msg]
  show Reg0.msgv (F := Ideal) (W5 m ρ c (Proc.devRef .tc main_v9) (pos u)) (W5 m ρ c (Proc.devRef .tc main_v12) (pos u)) (W5 m ρ c (Proc.devRef .tc main_arg2) (ix2 (0 : Fin 1) (0 : Fin 1))) = _
  rw [HostRead.H0a m ρ c u, HostRead.H0b m ρ c u, HostRead.H0c m ρ c, msgv_ideal]
  unfold Cert.Gcn.msg Cert.Gcn.xw Cert.Gcn.dinv Cert.Gcn.deg
  with_reducible rfl
theorem slf_at (c : Dev nD) (u : Fin 1000000) :
    (W6 m ρ c (Proc.devRef .tc main_v13_2) : S8192x128.Idx → EReal) (pos u)
      = Cert.Gcn.dinv (m ((c : Thread nD τ).loc main_arg1)) u * Cert.Gcn.msg (m ((c : Thread nD τ).loc main_arg0)) (m ((c : Thread nD τ).loc main_arg1)) (m ((c : Thread nD τ).loc main_arg2)) u := by
  rw [W6_slf]
  show Reg0.slf (F := Ideal) (W5 m ρ c (Proc.devRef .tc main_v9) (pos u)) (W5 m ρ c (Proc.devRef .tc main_v12) (pos u)) (W5 m ρ c (Proc.devRef .tc main_arg2) (ix2 (0 : Fin 1) (0 : Fin 1))) = _
  rw [HostRead.H0a m ρ c u, HostRead.H0b m ρ c u, HostRead.H0c m ρ c, slf_ideal]
  unfold Cert.Gcn.msg Cert.Gcn.xw Cert.Gcn.dinv Cert.Gcn.deg
  with_reducible rfl

/-- THE KERNEL'S RESULT at node `v` is the specification's output, when every source word is a node number. -/
theorem value (c : Dev nD) (hr : Cert.Gcn.SrcInRange (m ((c : Thread nD τ).loc main_arg1))) (v : Fin 1000000) :
    (W11 m ρ c (Proc.devRef .tc main_v31) : S1000000x1.Idx → EReal) (ix2 v (0 : Fin 1))
      = Cert.Gcn.out (m ((c : Thread nD τ).loc main_arg0)) (m ((c : Thread nD τ).loc main_arg1)) (m ((c : Thread nD τ).loc main_arg2)) (m ((c : Thread nD τ).loc main_arg3)) v := by
  rw [HostRead.H2 m ρ c v, W10_out]
  show Reg1.fin (F := Ideal) (W9 m ρ c (Proc.devRef .tc main_v13_0) (pos v)) (W9 m ρ c (Proc.devRef .tc main_v26) (pos v)) (W9 m ρ c (Proc.devRef .tc main_v13_2) (pos v)) (W9 m ρ c (Proc.devRef .tc main_v27) (ix2 (0 : Fin 1) (0 : Fin 1))) = _
  rw [HostRead.H1a_0 m ρ c, HostRead.H1a_2 m ρ c, HostRead.H1b m ρ c hr (msgArr m ρ c) rfl v, HostRead.H1c m ρ c, nrm_at m ρ c v, slf_at m ρ c v, fin_ideal]
  simp only [msg_at m ρ c]
  unfold Cert.Gcn.out Cert.Gcn.aggKer
  with_reducible rfl

end Cert.KernelIdeal.KerValue

end
-- ==== Proof.RefValue.lean ====
/-
  The reference program read at a node: its value at `(v, 0)` is the logistic of the aggregate `aggRef` plus the bias.

  The reference appends one self-loop per node to the edge list (positions `e < 32000000` are the edges, position
  `32000000 + j` is the loop at node `j`), counts the destinations (the degree), takes `1 / sqrt`, gathers both
  normalisers and the transformed feature per position, and sums the products by destination. Read at a node `v`:
  * a sum over the positions whose destination word, read signed, is `v` is the sum over the edges into `v` plus the
    term of the loop at `v` (`sum_to`);
  * the degree is that sum of ones, so it is `deg` (`v10_apply`);
  * a gathered row is the word read signed, a negative one moved up by the node count, clamped into the node range
    (`rowOf`): for a source word in range it is `srcIdx`, for the loop at `j` it is `j`, and for a destination word
    that reads as `v` it is `v`;
  * the last five operations are the logistic by its definition.
-/
import proofs.«175105_j11141145166326_2_alg».proof.Proof.Spec
import proofs.«175105_j11141145166326_2_alg».proof.Proof.LibVecIndex
import proofs.«175105_j11141145166326_2_alg».proof.Proof.Gen.ReferenceIdeal.Read
import Idealize.ShloMosaic.Lib.IdealHost

noncomputable section

open scoped BigOperators

namespace Cert.Gcn

open Idealize.ShloMosaic Idealize.ShloMosaic.ValueIdx Idealize.ShloMosaic.RowIndex
open Cert.ReferenceIdeal Cert.ReferenceIdeal.Read

/-- The edge list as the reference's argument. -/
abbrev EdgeWords := (⟨S2x32000000, .i32⟩ : BufTy).Contents (Elt Ideal)

/-- Position `e` of the joined list: edge `e`. -/
abbrev inl (e : Fin 32000000) : Fin 33000000 := ⟨e.val, by omega⟩
/-- Position `32000000 + j` of the joined list: the loop at node `j`. -/
abbrev inr (j : Fin 1000000) : Fin 33000000 := ⟨32000000 + j.val, by omega⟩

/-! ## The words of the joined lists -/

/-- Row 0 of the edge list, flattened, at `e`: the source word of edge `e`. -/
theorem v2_apply (x1 : EdgeWords) (e : Fin 32000000) : val_main_v2 (F := Ideal) x1 (ix1 e) = src x1 e := by
  rw [val_main_v2_apply, val_main_v1_apply]
  unfold src
  refine congrArg x1 (funext fun a => Fin.ext ?_)
  match a with
  | ⟨0, _⟩ => rfl
  | ⟨1, _⟩ => exact Nat.mod_eq_of_lt e.isLt

/-- Row 1 of the edge list, flattened, at `e`: the destination word of edge `e`. -/
theorem v5_apply (x1 : EdgeWords) (e : Fin 32000000) : val_main_v5 (F := Ideal) x1 (ix1 e) = dst x1 e := by
  rw [val_main_v5_apply, val_main_v4_apply]
  unfold dst
  refine congrArg x1 (funext fun a => Fin.ext ?_)
  match a with
  | ⟨0, _⟩ => rfl
  | ⟨1, _⟩ => exact Nat.mod_eq_of_lt e.isLt

/-- The joined source list at an edge position. -/
theorem v3_inl (x1 : EdgeWords) (e : Fin 32000000) : val_main_v3 (F := Ideal) x1 (ix1 (inl e)) = src x1 e :=
  (concatenate_vec_apply_left (val_main_v2 (F := Ideal) x1) (val_main_v0 (F := Ideal))
    Facts₀.concatenates_S32000000_S1000000_S33000000_d0 (inl e) e.isLt).trans (v2_apply x1 e)

/-- The joined source list at a loop position: the node number as a word. -/
theorem v3_inr (x1 : EdgeWords) (j : Fin 1000000) :
    val_main_v3 (F := Ideal) x1 (ix1 (inr j)) = BitVec.ofNat 32 j.val :=
  concatenate_vec_apply_right (val_main_v2 (F := Ideal) x1) (val_main_v0 (F := Ideal))
    Facts₀.concatenates_S32000000_S1000000_S33000000_d0 (inr j) j rfl

/-- The joined destination list at an edge position. -/
theorem v6_inl (x1 : EdgeWords) (e : Fin 32000000) : val_main_v6 (F := Ideal) x1 (ix1 (inl e)) = dst x1 e :=
  (concatenate_vec_apply_left (val_main_v5 (F := Ideal) x1) (val_main_v0 (F := Ideal))
    Facts₀.concatenates_S32000000_S1000000_S33000000_d0 (inl e) e.isLt).trans (v5_apply x1 e)

/-- The joined destination list at a loop position: the node number as a word. -/
theorem v6_inr (x1 : EdgeWords) (j : Fin 1000000) :
    val_main_v6 (F := Ideal) x1 (ix1 (inr j)) = BitVec.ofNat 32 j.val :=
  concatenate_vec_apply_right (val_main_v5 (F := Ideal) x1) (val_main_v0 (F := Ideal))
    Facts₀.concatenates_S32000000_S1000000_S33000000_d0 (inr j) j rfl

/-- A node number as a 32-bit word reads signed as itself. -/
theorem toInt_node (j : Fin 1000000) : (BitVec.ofNat 32 j.val).toInt = (j.val : Int) := by
  have hj := j.isLt
  have h1 : (BitVec.ofNat 32 j.val).toNat = j.val := by
    rw [BitVec.toNat_ofNat]; omega
  rw [BitVec.toInt_eq_toNat_of_lt (by rw [h1]; omega), h1]

/-! ## Sums by destination -/

/-- A sum over the positions of the joined list whose destination word reads signed as `v`: the edges into `v`, and
    the loop at `v`, once. -/
theorem sum_to (x1 : EdgeWords) (v : Fin 1000000) (g : Fin 33000000 → EReal) :
    ∑ e' ∈ Finset.univ.filter (fun e' : Fin 33000000 => (val_main_v6 (F := Ideal) x1 (ix1 e')).toInt = (v.val : Int)), g e'
      = ∑ e ∈ into x1 v, g (inl e) + g (inr v) := by
  rw [sum_filter_fin_split (a := 32000000) (b := 1000000) (by norm_num)]
  refine congrArg₂ (· + ·) ?_ ?_
  · unfold into
    refine Finset.sum_congr (Finset.filter_congr fun e _ => ?_) fun _ _ => rfl
    show (val_main_v6 (F := Ideal) x1 (ix1 (inl e))).toInt = _ ↔ _
    rw [v6_inl]
  · have hs : (Finset.univ.filter fun j : Fin 1000000 =>
        (val_main_v6 (F := Ideal) x1 (ix1 (inr j))).toInt = (v.val : Int)) = {v} := by
      ext j
      rw [Finset.mem_filter, Finset.mem_singleton, v6_inr, toInt_node]
      constructor
      · rintro ⟨_, h⟩; exact Fin.ext (by omega)
      · rintro rfl; exact ⟨Finset.mem_univ _, rfl⟩
    exact (congrArg (fun s => ∑ j ∈ s, g (inr j)) hs).trans (Finset.sum_singleton _ _)

/-! ## The degree and the normaliser -/

/-- The updates of the degree scatter are ones. -/
theorem v7_apply (e' : Fin 33000000) : val_main_v7 (F := Ideal) (ix1 e') = 1 := by
  rw [val_main_v7_apply, val_main_cst_apply]
  exact Ideal.ofBits_one_f32

/-- The operand of the degree scatter is zero. -/
theorem v8_apply (v : Fin 1000000) : val_main_v8 (F := Ideal) (ix1 v) = 0 := by
  rw [val_main_v8_apply, val_main_cst_0_apply]
  exact Ideal.ofBits_zero_f32

/-- The scattered count at `v` is the degree with its self-loop. -/
theorem v10_apply (x1 : EdgeWords) (v : Fin 1000000) : val_main_v10 (F := Ideal) x1 (ix1 v) = deg x1 v := by
  unfold val_main_v10
  rw [show scatter_S1000000_S33000000x1_S33000000_n_0_0_1
    = vecScatter 1000000 33000000 Facts₀.scatter_S1000000_S33000000x1_S33000000_n_0_0_1_wf from rfl]
  rw [scatterAdd_vec_apply]
  unfold val_main_v9
  rw [rowsTo_column, sum_to, v8_apply, v7_apply]
  unfold deg
  refine (add_assoc _ _ _).symm.trans ?_
  refine congrArg (fun s => (0 : EReal) + s + 1) (Finset.sum_congr rfl fun e _ => v7_apply _)

/-- The reciprocal square root of the count at `u` is the normaliser. -/
theorem v11_apply (x1 : EdgeWords) (u : Fin 1000000) : val_main_v11 (F := Ideal) x1 (ix1 u) = dinv x1 u := by
  unfold dinv
  rw [val_main_v11_apply, v10_apply, Ideal.hostUnary_rsqrt_def]

/-! ## The row a gathered position names -/

/-- A position word as the gathers read it: a negative word moved up by the node count. -/
abbrev wrap (c : BitVec 32) : BitVec 32 := Scalar.select (IntOp.cmpi .slt c 0#32) (IntOp.addi c 1000000#32) c

/-- The row a position word names when gathered: the wrapped word read signed and clamped into the node range. -/
def rowOf (c : BitVec 32) : Fin 1000000 := ⟨min (wrap c).toInt.toNat (1000000 - 1), by omega⟩

/-- A word that reads signed as the node `n` names row `n`. -/
theorem rowOf_eq (c : BitVec 32) (n : Fin 1000000) (h : c.toInt = (n.val : Int)) : rowOf c = n :=
  Fin.ext (wrap_clamp_of_toInt_eq c 1000000#32 n.val n.isLt h)

/-- A source word in range names its source node. -/
theorem rowOf_src (x1 : EdgeWords) (hr : SrcInRange x1) (e : Fin 32000000) : rowOf (src x1 e) = srcIdx x1 e := by
  have h := hr e
  refine rowOf_eq _ _ ?_
  show (src x1 e).toInt = ((min (src x1 e).toInt.toNat 999999 : Nat) : Int)
  omega

/-- The wrapped source word, for the first normaliser's gather. -/
theorem v17_apply (x1 : EdgeWords) (e' : Fin 33000000) :
    val_main_v17 (F := Ideal) x1 (atRow e') = wrap (val_main_v3 (F := Ideal) x1 (ix1 e')) := by
  refine (broadcastInDim_a_a1_apply (val_main_v16 (F := Ideal) x1) Facts₀.bcast_S33000000_S33000000x1_0 e' _).trans ?_
  rw [val_main_v16_apply, val_main_v13_apply, val_main_v15_apply, val_main_v12_apply, val_main_v14_apply,
    val_main_c_apply, val_main_c_1_apply]

/-- The wrapped destination word, for the second normaliser's gather. -/
theorem v24_apply (x1 : EdgeWords) (e' : Fin 33000000) :
    val_main_v24 (F := Ideal) x1 (atRow e') = wrap (val_main_v6 (F := Ideal) x1 (ix1 e')) := by
  refine (broadcastInDim_a_a1_apply (val_main_v23 (F := Ideal) x1) Facts₀.bcast_S33000000_S33000000x1_0 e' _).trans ?_
  rw [val_main_v23_apply, val_main_v20_apply, val_main_v22_apply, val_main_v19_apply, val_main_v21_apply,
    val_main_c_2_apply, val_main_c_3_apply]

/-- The wrapped source word, for the feature's gather. -/
theorem v33_apply (x1 : EdgeWords) (e' : Fin 33000000) :
    val_main_v33 (F := Ideal) x1 (atRow e') = wrap (val_main_v3 (F := Ideal) x1 (ix1 e')) := by
  refine (broadcastInDim_a_a1_apply (val_main_v32 (F := Ideal) x1) Facts₀.bcast_S33000000_S33000000x1_0 e' _).trans ?_
  rw [val_main_v32_apply, val_main_v29_apply, val_main_v31_apply, val_main_v28_apply, val_main_v30_apply,
    val_main_c_4_apply, val_main_c_5_apply]

/-! ## The gathers -/

/-- The source's normaliser at a position. -/
theorem v18_apply (x1 : EdgeWords) (e' : Fin 33000000) :
    val_main_v18 (F := Ideal) x1 (ix1 e') = dinv x1 (rowOf (val_main_v3 (F := Ideal) x1 (ix1 e'))) := by
  unfold val_main_v18
  rw [show gather_S1000000_S33000000x1_S33000000_n_0_n_n_0_1_1
    = vecDims 1000000 33000000 Facts₀.gather_S1000000_S33000000x1_S33000000_n_0_n_n_0_1_1_wf from rfl]
  rw [gather_vec_apply 1000000 33000000 (by omega)]
  refine (v11_apply x1 _).trans (congrArg (dinv x1) (Fin.ext ?_))
  show min (val_main_v17 (F := Ideal) x1 (atRow e')).toInt.toNat (1000000 - 1) = min _ _
  rw [v17_apply]

/-- The destination's normaliser at a position. -/
theorem v25_apply (x1 : EdgeWords) (e' : Fin 33000000) :
    val_main_v25 (F := Ideal) x1 (ix1 e') = dinv x1 (rowOf (val_main_v6 (F := Ideal) x1 (ix1 e'))) := by
  unfold val_main_v25
  rw [show gather_S1000000_S33000000x1_S33000000_n_0_n_n_0_1_1
    = vecDims 1000000 33000000 Facts₀.gather_S1000000_S33000000x1_S33000000_n_0_n_n_0_1_1_wf from rfl]
  rw [gather_vec_apply 1000000 33000000 (by omega)]
  refine (v11_apply x1 _).trans (congrArg (dinv x1) (Fin.ext ?_))
  show min (val_main_v24 (F := Ideal) x1 (atRow e')).toInt.toNat (1000000 - 1) = min _ _
  rw [v24_apply]

/-- The linear transform at a node: one product, the contraction having one term. -/
theorem v27_apply (x0 : (⟨S1000000x1, .f32⟩ : BufTy).Contents (Elt Ideal)) (x2 : (⟨S1x1, .f32⟩ : BufTy).Contents (Elt Ideal))
    (u : Fin 1000000) : val_main_v27 (F := Ideal) x0 x2 (ix2 u (0 : Fin 1)) = xw x0 x2 u := by
  rw [val_main_v27_apply, Fin.sum_univ_one]
  unfold xw
  refine congrArg₂ (· * ·) (congrArg x0 (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

/-- The source's transformed feature at a position. -/
theorem v34_apply (x0 : (⟨S1000000x1, .f32⟩ : BufTy).Contents (Elt Ideal)) (x1 : EdgeWords)
    (x2 : (⟨S1x1, .f32⟩ : BufTy).Contents (Elt Ideal)) (e' : Fin 33000000) :
    val_main_v34 (F := Ideal) x0 x1 x2 (ix2 e' (0 : Fin 1)) = xw x0 x2 (rowOf (val_main_v3 (F := Ideal) x1 (ix1 e'))) := by
  unfold val_main_v34
  rw [show gather_S1000000x1_S33000000x1_S33000000x1_1_0_n_n_0_1_11
    = rowsDims 1000000 1 33000000 Facts₀.gather_S1000000x1_S33000000x1_S33000000x1_1_0_n_n_0_1_11_wf from rfl]
  rw [gather_rows_apply 1000000 1 33000000 (by omega)]
  refine (congrArg (val_main_v27 (F := Ideal) x0 x2) ?_).trans (v27_apply x0 x2 _)
  refine congrArg (fun r : Fin 1000000 => ix2 r (0 : Fin 1)) (Fin.ext ?_)
  show min (val_main_v33 (F := Ideal) x1 (atRow e')).toInt.toNat (1000000 - 1) = min _ _
  rw [v33_apply]

/-- The message at a position: the source's feature times both normalisers. -/
theorem v36_apply (x0 : (⟨S1000000x1, .f32⟩ : BufTy).Contents (Elt Ideal)) (x1 : EdgeWords)
    (x2 : (⟨S1x1, .f32⟩ : BufTy).Contents (Elt Ideal)) (e' : Fin 33000000) :
    val_main_v36 (F := Ideal) x0 x1 x2 (ix2 e' (0 : Fin 1))
      = xw x0 x2 (rowOf (val_main_v3 (F := Ideal) x1 (ix1 e')))
        * (dinv x1 (rowOf (val_main_v3 (F := Ideal) x1 (ix1 e'))) * dinv x1 (rowOf (val_main_v6 (F := Ideal) x1 (ix1 e')))) := by
  rw [val_main_v36_apply, v34_apply]
  have h35 : val_main_v35 (F := Ideal) x1 (ix2 e' (0 : Fin 1)) = val_main_v26 (F := Ideal) x1 (ix1 e') :=
    broadcastInDim_a_a1_apply (val_main_v26 (F := Ideal) x1) Facts₀.bcast_S33000000_S33000000x1_0 e' _
  rw [h35, val_main_v26_apply, v18_apply, v25_apply]
  rfl

/-! ## The aggregate and the logistic -/

/-- The operand of the aggregating scatter is zero. -/
theorem v37_apply (v : Fin 1000000) : val_main_v37 (F := Ideal) (ix2 v (0 : Fin 1)) = 0 := by
  rw [val_main_v37_apply, val_main_cst_6_apply]
  exact Ideal.ofBits_zero_f32

/-- The scattered sum at `v` is the aggregate, every message carrying both normalisers. -/
theorem v39_apply (x0 : (⟨S1000000x1, .f32⟩ : BufTy).Contents (Elt Ideal)) (x1 : EdgeWords)
    (x2 : (⟨S1x1, .f32⟩ : BufTy).Contents (Elt Ideal)) (hr : SrcInRange x1) (v : Fin 1000000) :
    val_main_v39 (F := Ideal) x0 x1 x2 (ix2 v (0 : Fin 1)) = aggRef x0 x1 x2 v := by
  unfold val_main_v39
  rw [show scatter_S1000000x1_S33000000x1_S33000000x1_1_0_0_1
    = rowScatter 1000000 1 33000000 Facts₀.scatter_S1000000x1_S33000000x1_S33000000x1_1_0_0_1_wf from rfl]
  rw [scatterAdd_rows_apply]
  unfold val_main_v38
  rw [rowsTo_column, sum_to, v37_apply]
  unfold aggRef
  refine congrArg (fun s => (0 : EReal) + s) (congrArg₂ (· + ·) (Finset.sum_congr rfl fun e he => ?_) ?_)
  · have hd : (dst x1 e).toInt = (v.val : Int) := (Finset.mem_filter.mp he).2
    rw [v36_apply, v3_inl, v6_inl, rowOf_src x1 hr, rowOf_eq (dst x1 e) v hd]
  · rw [v36_apply, v3_inr, v6_inr, rowOf_eq _ v (toInt_node v)]

/-- The bias laid against every node. -/
theorem v41_apply (x3 : (⟨S1, .f32⟩ : BufTy).Contents (Elt Ideal)) (v : Fin 1000000) :
    val_main_v41 (F := Ideal) x3 (ix2 v (0 : Fin 1)) = x3 (ix1 (0 : Fin 1)) := by
  rw [val_main_v41_apply, val_main_v40_apply]
  refine congrArg x3 (funext fun a => Fin.ext ?_)
  match a with
  | ⟨0, _⟩ => rfl

/-- THE REFERENCE AT A NODE: the logistic of the aggregate plus the bias. -/
theorem ref_value
    (x0 : (⟨Cert.ReferenceIdeal.S1000000x1, .f32⟩ : BufTy).Contents (Elt Ideal)) (x1 : (⟨Cert.ReferenceIdeal.S2x32000000, .i32⟩ : BufTy).Contents (Elt Ideal))
    (x2 : (⟨Cert.ReferenceIdeal.S1x1, .f32⟩ : BufTy).Contents (Elt Ideal)) (x3 : (⟨Cert.ReferenceIdeal.S1, .f32⟩ : BufTy).Contents (Elt Ideal))
    (hr : SrcInRange x1) (v : Fin 1000000) :
    Cert.ReferenceIdeal.Read.val_main_v48 (F := Ideal) x0 x1 x2 x3 (ix2 v (0 : Fin 1))
      = Ideal.logistic (aggRef x0 x1 x2 v + x3 (ix1 (0 : Fin 1))) := by
  rw [val_main_v48_apply, val_main_v47_apply, val_main_cst_8_apply, val_main_v46_apply, val_main_v45_apply,
    val_main_cst_7_apply, val_main_v44_apply, val_main_v43_apply, val_main_v42_apply, v39_apply x0 x1 x2 hr v, v41_apply]
  rw [Ideal.hostDivf_def, Ideal.ofBits_def, Ideal.addf_def, Ideal.hostUnary_exp_def, Ideal.hostNegf_def, Ideal.negf_def,
    Ideal.addf_def, Ideal.ofBits_one_f32]
  unfold Ideal.logistic
  rfl

end Cert.Gcn

end
-- ==== Proof.SpecLaws.lean ====
/-
  The algebra of the graph-convolution specification: the degree of a node is a real number at least one, so its
  normaliser `1 / sqrt (deg v)` is a real number; with real features and a real weight every transformed
  feature is a real number; and over real numbers the two arrangements of the aggregate agree, by distributing
  the destination's normaliser over the finite sum of messages.
-/
import proofs.«175105_j11141145166326_2_alg».proof.Proof.Spec
import Mathlib.Data.EReal.Basic
import Mathlib.Data.EReal.Operations
import Mathlib.Algebra.BigOperators.Ring.Finset
import Mathlib.Tactic.Ring
import Mathlib.Tactic.Linarith

noncomputable section

namespace Cert.Gcn

open Idealize.ShloMosaic Idealize.ShloMosaic.ValueIdx

/-- The inclusion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- the degree is a real number, at least one -/
theorem deg_real (ei : IVec SE 32) (v : Fin 1000000) : ∃ r : ℝ, 1 ≤ r ∧ deg ei v = (r : EReal) := by
  refine ⟨(∑ _e ∈ into ei v, (1 : ℝ)) + 1, ?_, ?_⟩
  · have h0 : (0 : ℝ) ≤ ∑ _e ∈ into ei v, (1 : ℝ) := Finset.sum_nonneg fun _ _ => zero_le_one
    linarith
  · unfold deg
    rw [zero_add, EReal.coe_add, coe_finset_sum, EReal.coe_one]

/-- the normaliser is a real number -/
theorem dinv_real (ei : IVec SE 32) (v : Fin 1000000) : IsReal (dinv ei v) := by
  obtain ⟨r, hr, h⟩ := deg_real ei v
  unfold dinv
  rw [h, Ideal.rsqrt_coe, if_neg (by linarith), if_neg (by linarith)]
  exact ⟨_, rfl⟩

/-- a real feature times a real weight is a real number -/
theorem xw_real (X : SX.Idx → EReal) (Wt : SW.Idx → EReal) (hX : ∀ i, IsReal (X i)) (hW : ∀ i, IsReal (Wt i))
    (v : Fin 1000000) : IsReal (xw X Wt v) := by
  obtain ⟨a, ha⟩ := hX (ix2 v (0 : Fin 1))
  obtain ⟨b, hb⟩ := hW (ix2 (0 : Fin 1) (0 : Fin 1))
  unfold xw
  rw [ha, hb]
  exact ⟨a * b, (EReal.coe_mul a b).symm⟩

/-- Over real numbers the two arrangements of the aggregate agree:
    `Σ a_e · (d_e · d) + a · (d · d) = d · Σ (a_e · d_e) + d · (a · d)`. -/
theorem aggRef_eq_aggKer (X : SX.Idx → EReal) (ei : IVec SE 32) (Wt : SW.Idx → EReal)
    (hX : ∀ i, IsReal (X i)) (hW : ∀ i, IsReal (Wt i)) (v : Fin 1000000) :
    aggRef X ei Wt v = aggKer X ei Wt v := by
  choose a ha using xw_real X Wt hX hW
  choose d hd using dinv_real ei
  unfold aggRef aggKer msg
  simp only [ha, hd]
  rw [zero_add, zero_add]
  simp only [← EReal.coe_mul, ← coe_finset_sum, ← EReal.coe_add]
  rw [EReal.coe_eq_coe_iff, Finset.mul_sum]
  refine congrArg₂ (· + ·) (Finset.sum_congr rfl fun e _ => ?_) ?_
  · ring
  · ring

end Cert.Gcn

end
-- ==== Proof.PreDecode.lean ====
/-
  The precondition read back. It is the conjunction of four "all entries" tests: the absolute value of every entry of
  the features, of the weight and of the bias is below plus infinity, and every source word of the edge list (row 0,
  read signed) lies in `[0, 1000000)`. An extended real whose absolute value is below plus infinity is a real
  number; a conjunction of bits is one exactly when every bit is one; a signed comparison bit is one exactly when the
  signed inequality holds.
-/
import proofs.«175105_j11141145166326_2_alg».proof.Proof.Spec
import proofs.«175105_j11141145166326_2_alg».proof.Proof.Gen.Pre_finite_inputs
import Idealize.ShloMosaic.Lib.ReduceAll
import Idealize.ShloMosaic.Lib.Pipeline.Value

noncomputable section

namespace Cert.Gcn

open Idealize.ShloMosaic Idealize.ShloMosaic.ValueIdx
open Cert.Pre_finite_inputs (S_ S1000000x1 S2x32000000 S1x1 S1 S1x32000000 S32000000)

/-- The scalar shape has one index. -/
instance : Subsingleton S_.Idx := ⟨fun a b => funext fun d => d.elim0⟩

/-- A conjunction of bit vectors at an index is the conjunction of the bits there. -/
theorem andi_at {s : Shape} {w : Nat} (x y : IVec s w) (i : s.Idx) : andi x y i = IntOp.andi (x i) (y i) := rfl
/-- A comparison of word vectors at an index compares the words there. -/
theorem cmpi_at {s : Shape} {w : Nat} (p : CmpIPredicate) (x y : IVec s w) (i : s.Idx) :
    cmpi p x y i = IntOp.cmpi p (x i) (y i) := rfl

/-- An extended real whose absolute value `max x (-x)` is below plus infinity is a real number. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Row 0 of the `[2, 32000000]` edge list, flattened to `[32000000]`, read at `e` is the entry `(0, e)`:
    the slice keeps row 0 and every column, and the flattening of a one-row array keeps the column number. -/
theorem src_read (x1 : IVec S2x32000000 32) (hs : S2x32000000.Slices ![0, 0] S1x32000000)
    (hc : S1x32000000.ShapeCasts S32000000) (e : Fin 32000000) :
    shapeCast S32000000 (extractStridedSlice S1x32000000 ![0, 0] x1 hs) hc (ix1 e) = x1 (ix2 (0 : Fin 2) e) := by
  generalize hy : extractStridedSlice S1x32000000 ![0, 0] x1 hs = y
  rw [shapeCast_apply y hc (ix1 e) (ix2 (0 : Fin 1) e)
    (by rewrite [Shape.rowMajor_val_two, Shape.rowMajor_val_one]; show 0 * 32000000 + e.val = e.val; omega)]
  subst hy
  exact extractStridedSlice_apply ![0, 0] x1 hs (ix2 (0 : Fin 1) e) (ix2 (0 : Fin 2) e) (fun a => match a with
    | ⟨0, _⟩ => by show (0 : Nat) = 0 + 0; rfl
    | ⟨1, _⟩ => by show e.val = 0 + e.val; omega)

/-- THE PRECONDITION DECODED: the features and the weight are real numbers entrywise and every source word is a
    node number. -/
theorem pre_decode
    (x0 : FVec Ideal Cert.Pre_finite_inputs.S1000000x1 .f32) (x1 : IVec Cert.Pre_finite_inputs.S2x32000000 32)
    (x2 : FVec Ideal Cert.Pre_finite_inputs.S1x1 .f32) (x3 : FVec Ideal Cert.Pre_finite_inputs.S1 .f32)
    (h : Cert.Pre_finite_inputs.fn (F := Ideal) x0 x1 x2 x3 = fun _ => 1#1) :
    (∀ i, IsReal (x0 i)) ∧ (∀ i, IsReal (x2 i)) ∧ SrcInRange x1 := by
  have e := congrFun h ValueIdx.ix0
  dsimp only [Cert.Pre_finite_inputs.fn, Cert.Pre_finite_inputs.fn_part1] at e
  simp only [andi_at, IntOp.andi_eq_one] at e
  obtain ⟨⟨⟨h0, h2⟩, -⟩, hI⟩ := e
  refine ⟨fun i => ?_, fun i => ?_, fun k => ?_⟩
  · exact isReal_of_abs_lt_top _ (Host.reduce_andi_all _ _ _ _ _ h0 i)
  · exact isReal_of_abs_lt_top _ (Host.reduce_andi_all _ _ _ _ _ h2 i)
  · have hk := Host.reduce_andi_all _ _ _ _ _ hI (ix1 k)
    rw [andi_at, IntOp.andi_eq_one, cmpi_at, cmpi_at, IntOp.cmpi_sge, IntOp.cmpi_slt, src_read] at hk
    exact hk

end Cert.Gcn

end
-- ==== Proof.lean ====
/-
  One graph-convolution layer on a scalar node feature — self-loops, symmetric degree normalisation, a logistic —
  over 1000000 nodes and 32000000 directed edges: the kernel program against its reference, equal as extended reals
  at every node, under the precondition that the float inputs are finite and every source word of the edge list is a
  node number (in `[0, 1000000)`).

  The reference appends a self-loop per node to the edge list, counts destinations for the degree, and sums
  `xw[src] · dinv[src] · dinv[dst]` over the extended list by destination. The kernel counts the real edges only and adds
  the self-loop's one inside its first pipelined call, which also forms the per-node message `xw · dinv` and the
  self-loop's contribution `dinv · (xw · dinv)`; the host then gathers the messages at the sources and sums them by
  destination; the second call multiplies the destination's normaliser once, adds the self-loop's contribution and the
  bias, and applies the logistic. Both are the specification's `out` (Proof/Spec.lean): the kernel literally
  (`aggKer`), the reference after distributing the destination's normaliser over the finite sum of messages
  (`aggRef = aggKer`), which needs every summand real — the degree is a positive whole number, so its normaliser is real,
  and the features and the weight are finite by the precondition. The range of the source words is what makes the
  kernel's gather from its padded array of 1048576 entries read the same node as the reference's gather from 1000000:
  outside the range the two wrap and clamp differently. The destination words need no hypothesis: both programs drop
  an edge whose destination is no node number.

  The three frames are the generated frame proofs (the reference's frame is its generated run with the result
  dropped); `preserves` has no entry. The kernel's run with its result named is Proof/KerRun.lean, its value
  Proof/KerValue.lean over the two calls (Proof/KerRegion0.lean, Proof/KerRegion1.lean) and the host stretches
  (Proof/KerHost.lean); the reference's value is Proof/RefValue.lean over the generated read-at-an-index lemmas; the
  precondition is read back in Proof/PreDecode.lean and the algebra is Proof/SpecLaws.lean.
-/
import proofs.«175105_j11141145166326_2_alg».proof.Defs
import proofs.«175105_j11141145166326_2_alg».proof.Proof.Gen.Kernel
import proofs.«175105_j11141145166326_2_alg».proof.Proof.Gen.Kernel.Skeleton
import proofs.«175105_j11141145166326_2_alg».proof.Proof.Gen.Kernel.Launch
import proofs.«175105_j11141145166326_2_alg».proof.Proof.Gen.Kernel.Points
import proofs.«175105_j11141145166326_2_alg».proof.Proof.Gen.Kernel.Frame
import proofs.«175105_j11141145166326_2_alg».proof.Proof.Gen.KernelIdeal
import proofs.«175105_j11141145166326_2_alg».proof.Proof.Gen.KernelIdeal.Skeleton
import proofs.«175105_j11141145166326_2_alg».proof.Proof.Gen.KernelIdeal.Launch
import proofs.«175105_j11141145166326_2_alg».proof.Proof.Gen.KernelIdeal.Points
import proofs.«175105_j11141145166326_2_alg».proof.Proof.Gen.KernelIdeal.Frame
import proofs.«175105_j11141145166326_2_alg».proof.Proof.Gen.ReferenceIdeal
import proofs.«175105_j11141145166326_2_alg».proof.Proof.Gen.ReferenceIdeal.Run
import proofs.«175105_j11141145166326_2_alg».proof.Proof.Gen.ReferenceIdeal.Read
import proofs.«175105_j11141145166326_2_alg».proof.Proof.Gen.Pre_finite_inputs
import proofs.«175105_j11141145166326_2_alg».proof.Proof.KerRun
import proofs.«175105_j11141145166326_2_alg».proof.Proof.KerValue
import proofs.«175105_j11141145166326_2_alg».proof.Proof.RefValue
import proofs.«175105_j11141145166326_2_alg».proof.Proof.SpecLaws
import proofs.«175105_j11141145166326_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The three frames: the two kernel programs' generated frame proofs, and the reference's generated run with its
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification's output at every node: the
    kernel by its value (`KerValue.value`), the reference by its value (`ref_value`) and the law `aggRef = aggKer`,
    whose hypotheses — real features, real weight, source words in range — are the precondition read back. -/
theorem algebraic : Cert.algebraic_KernelIdeal_ReferenceIdeal := by
  intro m ρ m' ρ' hpre hagree
  refine ⟨fun c => Cert.KernelIdeal.Gen.W11 m ρ c (Proc.devRef .tc Cert.KernelIdeal.main_v31),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2]
  obtain ⟨hX, hW, hr⟩ := Cert.Gcn.pre_decode _ _ _ _ (hpre c)
  funext i
  obtain ⟨v, u, rfl⟩ : ∃ (v : Fin 1000000) (u : Fin 1), i = ix2 v u := ⟨i 0, i 1, eq_ix2 i⟩
  obtain rfl : u = 0 := Subsingleton.elim _ _
  rw [Cert.Gcn.ref_value _ _ _ _ hr v, Cert.Gcn.aggRef_eq_aggKer _ _ _ hX hW v]
  exact (Cert.KernelIdeal.KerValue.value m ρ c hr v).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
